-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x16384x2 : Shape := ⟨3, ![8, 16384, 2]⟩
abbrev S_ : Shape := ⟨0, ![]⟩
abbrev S90 : Shape := ⟨1, ![90]⟩
abbrev S5 : Shape := ⟨1, ![5]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S8x16384x2 : S_.BroadcastsInDim S8x16384x2 (![] : Fin 0 → Fin S8x16384x2.rank)
  reducesTo_S8x16384x2_S_d0_1_2 : S8x16384x2.ReducesTo [0, 1, 2] S_
  reducesTo_S_S_d : S_.ReducesTo [] S_
  bcast_S_S90 : S_.BroadcastsInDim S90 (![] : Fin 0 → Fin S90.rank)
  reducesTo_S90_S_d0 : S90.ReducesTo [0] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S5 .f32) (main_v12 : IVec S_ 1) (main_v15 : IVec S90 1) (main_c_5 : IVec S_ 1) : IVec S_ 1 :=
  let main_v16 : IVec S_ 1 := (fun x v => Host.reduce IntOp.andi x v reducesTo_S90_S_d0 h_S_) main_v15 main_c_5
  let main_v17 : IVec S_ 1 := andi main_v12 main_v16
  let main_v18 : FVec F S5 .f32 := Host.absf main_arg4
  let main_cst_6 : FVec F S_ .f32 := constant S_ .f32 0x7F800000#32
  let main_v19 : FVec F S5 .f32 := broadcastInDim S5 ![] bcast_S_S5 main_cst_6
  let main_v20 : IVec S5 1 := cmpf .olt main_v18 main_v19
  let main_c_7 : IVec S_ 1 := constantI S_ 1 1#1
  let main_v21 : IVec S_ 1 := (fun x v => Host.reduce IntOp.andi x v reducesTo_S5_S_d0 h_S_) main_v20 main_c_7
  let main_v22 : IVec S_ 1 := andi main_v17 main_v21
  main_v22

def fn {F : FTy → Type} [FloatOps F] (main_arg0 : FVec F S8x16x512x512 .f32) (main_arg1 : FVec F S8x16384x2 .f32) (main_arg2 : FVec F S_ .f32) (main_arg3 : FVec F S90 .f32) (main_arg4 : FVec F S5 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S8x16384x2 .f32 := Host.absf main_arg1
  let main_cst_0 : FVec F S_ .f32 := constant S_ .f32 0x7F800000#32
  let main_v5 : FVec F S8x16384x2 .f32 := broadcastInDim S8x16384x2 ![] bcast_S_S8x16384x2 main_cst_0
  let main_v6 : IVec S8x16384x2 1 := cmpf .olt main_v4 main_v5
  let main_c_1 : IVec S_ 1 := constantI S_ 1 1#1
  let main_v7 : IVec S_ 1 := (fun x v => Host.reduce IntOp.andi x v reducesTo_S8x16384x2_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S90 .f32 := Host.absf main_arg3
  let main_cst_4 : FVec F S_ .f32 := constant S_ .f32 0x7F800000#32
  let main_v14 : FVec F S90 .f32 := broadcastInDim S90 ![] bcast_S_S90 main_cst_4
  let main_v15 : IVec S90 1 := cmpf .olt main_v13 main_v14
  let main_c_5 : IVec S_ 1 := constantI S_ 1 1#1
  fn_part1 (F := F) main_arg4 main_v12 main_v15 main_c_5
-- ==== Kernel.lean ====
abbrev S8x16x512x512 : Shape := ⟨4, ![8, 16, 512, 512]⟩
abbrev S8x16384x2 : Shape := ⟨3, ![8, 16384, 2]⟩
abbrev S_ : Shape := ⟨0, ![]⟩
abbrev S90 : Shape := ⟨1, ![90]⟩
abbrev S5 : Shape := ⟨1, ![5]⟩
abbrev S8x16384x1 : Shape := ⟨3, ![8, 16384, 1]⟩
abbrev S8x16384 : Shape := ⟨2, ![8, 16384]⟩
abbrev S1x1x90 : Shape := ⟨3, ![1, 1, 90]⟩
abbrev S8x16384x90 : Shape := ⟨3, ![8, 16384, 90]⟩
abbrev S8x16384x5x18 : Shape := ⟨4, ![8, 16384, 5, 18]⟩
abbrev S8x16384x5 : Shape := ⟨3, ![8, 16384, 5]⟩
abbrev S1x1x5 : Shape := ⟨3, ![1, 1, 5]⟩
abbrev S8x5x16384 : Shape := ⟨3, ![8, 5, 16384]⟩
abbrev S8x16x16384 : Shape := ⟨3, ![8, 16, 16384]⟩
abbrev S1x16x512x512 : Shape := ⟨4, ![1, 16, 512, 512]⟩
abbrev S1x5x256 : Shape := ⟨3, ![1, 5, 256]⟩
abbrev S1x16x256 : Shape := ⟨3, ![1, 16, 256]⟩
abbrev S512x256 : Shape := ⟨2, ![512, 256]⟩
abbrev S1x1x256 : Shape := ⟨3, ![1, 1, 256]⟩
abbrev S256 : Shape := ⟨1, ![256]⟩
abbrev S1x256 : Shape := ⟨2, ![1, 256]⟩
abbrev S16x512x512 : Shape := ⟨3, ![16, 512, 512]⟩
abbrev S8192x512 : Shape := ⟨2, ![8192, 512]⟩
abbrev S8192x256 : Shape := ⟨2, ![8192, 256]⟩
abbrev S16x512x256 : Shape := ⟨3, ![16, 512, 256]⟩
abbrev S1x512x256 : Shape := ⟨3, ![1, 512, 256]⟩
abbrev S16x256 : Shape := ⟨2, ![16, 256]⟩

abbrev nBuf : Space → Nat
  | .hbm => 127
  | .vmem => 11
  | .smem => 0
  | _ => 0

abbrev bufTy : (tb : Table) → Fin (tcTables nBuf tb) → BufTy
  | .hbm, ⟨0, _⟩ => ⟨S8x16x512x512, .f32⟩
  | .hbm, ⟨1, _⟩ => ⟨S8x16384x2, .f32⟩
  | .hbm, ⟨2, _⟩ => ⟨S_, .f32⟩
  | .hbm, ⟨3, _⟩ => ⟨S90, .f32⟩
  | .hbm, ⟨4, _⟩ => ⟨S5, .f32⟩
  | .hbm, ⟨5, _⟩ => ⟨S8x16384x1, .f32⟩
  | .hbm, ⟨6, _⟩ => ⟨S8x16384, .f32⟩
  | .hbm, ⟨7, _⟩ => ⟨S_, .f32⟩
  | .hbm, ⟨8, _⟩ => ⟨S8x16384, .f32⟩
  | .hbm, ⟨9, _⟩ => ⟨S8x16384, .f32⟩
  | .hbm, ⟨10, _⟩ => ⟨S8x16384x1, .f32⟩
  | .hbm, ⟨11, _⟩ => ⟨S8x16384, .f32⟩
  | .hbm, ⟨12, _⟩ => ⟨S_, .f32⟩
  | .hbm, ⟨13, _⟩ => ⟨S8x16384, .f32⟩
  | .hbm, ⟨14, _⟩ => ⟨S8x16384, .f32⟩
  | .hbm, ⟨15, _⟩ => ⟨S8x16384, .f32⟩
  | .hbm, ⟨16, _⟩ => ⟨S8x16384, .f32⟩
  | .hbm, ⟨17, _⟩ => ⟨S8x16384x1, .f32⟩
  | .hbm, ⟨18, _⟩ => ⟨S1x1x90, .f32⟩
  | .hbm, ⟨19, _⟩ => ⟨S8x16384x90, .f32⟩
  | .hbm, ⟨20, _⟩ => ⟨S8x16384x90, .f32⟩
  | .hbm, ⟨21, _⟩ => ⟨S8x16384x90, .f32⟩
  | .hbm, ⟨22, _⟩ => ⟨S_, .f32⟩
  | .hbm, ⟨23, _⟩ => ⟨S_, .i32⟩
  | .hbm, ⟨24, _⟩ => ⟨S_, .f32⟩
  | .hbm, ⟨25, _⟩ => ⟨S8x16384x90, .f32⟩
  | .hbm, ⟨26, _⟩ => ⟨S8x16384x90, .f32⟩
  | .hbm, ⟨27, _⟩ => ⟨S_, .f32⟩
  | .hbm, ⟨28, _⟩ => ⟨S8x16384x90, .f32⟩
  | .hbm, ⟨29, _⟩ => ⟨S8x16384x90, .f32⟩
  | .hbm, ⟨30, _⟩ => ⟨S8x16384x1, .f32⟩
  | .hbm, ⟨31, _⟩ => ⟨S1x1x90, .f32⟩
  | .hbm, ⟨32, _⟩ => ⟨S8x16384x90, .f32⟩
  | .hbm, ⟨33, _⟩ => ⟨S8x16384x90, .f32⟩
  | .hbm, ⟨34, _⟩ => ⟨S8x16384x90, .f32⟩
  | .hbm, ⟨35, _⟩ => ⟨S_, .f32⟩
  | .hbm, ⟨36, _⟩ => ⟨S_, .i32⟩
  | .hbm, ⟨37, _⟩ => ⟨S_, .f32⟩
  | .hbm, ⟨38, _⟩ => ⟨S8x16384x90, .f32⟩
  | .hbm, ⟨39, _⟩ => ⟨S8x16384x90, .f32⟩
  | .hbm, ⟨40, _⟩ => ⟨S_, .f32⟩
  | .hbm, ⟨41, _⟩ => ⟨S8x16384x90, .f32⟩
  | .hbm, ⟨42, _⟩ => ⟨S8x16384x90, .f32⟩
  | .hbm, ⟨43, _⟩ => ⟨S8x16384x1, .f32⟩
  | .hbm, ⟨44, _⟩ => ⟨S8x16384x90, .f32⟩
  | .hbm, ⟨45, _⟩ => ⟨S8x16384x90, .f32⟩
  | .hbm, ⟨46, _⟩ => ⟨S8x16384x90, .f32⟩
  | .hbm, ⟨47, _⟩ => ⟨S8x16384x90, .f32⟩
  | .hbm, ⟨48, _⟩ => ⟨S8x16384x90, .f32⟩
  | .hbm, ⟨49, _⟩ => ⟨S_, .f32⟩
  | .hbm, ⟨50, _⟩ => ⟨S8x16384x90, .f32⟩
  | .hbm, ⟨51, _⟩ => ⟨S8x16384x90, .f32⟩
  | .hbm, ⟨52, _⟩ => ⟨S8x16384x90, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8x16384x90, .f32⟩
  | .hbm, ⟨58, _⟩ => ⟨S8x16384x90, .f32⟩
  | .hbm, ⟨59, _⟩ => ⟨S8x16384x5x18, .f32⟩
  | .hbm, ⟨60, _⟩ => ⟨S_, .f32⟩
  | .hbm, ⟨61, _⟩ => ⟨S8x16384x5, .f32⟩
  | .hbm, ⟨62, _⟩ => ⟨S8x16384x1, .f32⟩
  | .hbm, ⟨63, _⟩ => ⟨S8x16384x90, .f32⟩
  | .hbm, ⟨64, _⟩ => ⟨S8x16384x90, .f32⟩
  | .hbm, ⟨65, _⟩ => ⟨S8x16384x90, .f32⟩
  | .hbm, ⟨66, _⟩ => ⟨S8x16384x90, .f32⟩
  | .hbm, ⟨67, _⟩ => ⟨S8x16384x90, .f32⟩
  | .hbm, ⟨68, _⟩ => ⟨S_, .f32⟩
  | .hbm, ⟨69, _⟩ => ⟨S8x16384x90, .f32⟩
  | .hbm, ⟨70, _⟩ => ⟨S8x16384x90, .f32⟩
  | .hbm, ⟨71, _⟩ => ⟨S8x16384x90, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8x16384x90, .f32⟩
  | .hbm, ⟨77, _⟩ => ⟨S8x16384x90, .f32⟩
  | .hbm, ⟨78, _⟩ => ⟨S8x16384x5x18, .f32⟩
  | .hbm, ⟨79, _⟩ => ⟨S_, .f32⟩
  | .hbm, ⟨80, _⟩ => ⟨S8x16384x5, .f32⟩
  | .hbm, ⟨81, _⟩ => ⟨S_, .f32⟩
  | .hbm, ⟨82, _⟩ => ⟨S8x16384, .f32⟩
  | .hbm, ⟨83, _⟩ => ⟨S8x16384x1, .f32⟩
  | .hbm, ⟨84, _⟩ => ⟨S8x16384x5, .f32⟩
  | .hbm, ⟨85, _⟩ => ⟨S8x16384x5, .f32⟩
  | .hbm, ⟨86, _⟩ => ⟨S_, .f32⟩
  | .hbm, ⟨87, _⟩ => ⟨S8x16384, .f32⟩
  | .hbm, ⟨88, _⟩ => ⟨S8x16384x1, .f32⟩
  | .hbm, ⟨89, _⟩ => ⟨S8x16384x5, .f32⟩
  | .hbm, ⟨90, _⟩ => ⟨S8x16384x5, .f32⟩
  | .hbm, ⟨91, _⟩ => ⟨S8x16384x1, .f32⟩
  | .hbm, ⟨92, _⟩ => ⟨S1x1x5, .f32⟩
  | .hbm, ⟨93, _⟩ => ⟨S8x16384x5, .f32⟩
  | .hbm, ⟨94, _⟩ => ⟨S8x16384x5, .f32⟩
  | .hbm, ⟨95, _⟩ => ⟨S8x16384x5, .f32⟩
  | .hbm, ⟨96, _⟩ => ⟨S8x16384x5, .f32⟩
  | .hbm, ⟨97, _⟩ => ⟨S_, .i32⟩
  | .hbm, ⟨98, _⟩ => ⟨S_, .i32⟩
  | .hbm, ⟨99, _⟩ => ⟨S_, .f32⟩
  | .hbm, ⟨100, _⟩ => ⟨S8x16384x5, .f32⟩
  | .hbm, ⟨101, _⟩ => ⟨S8x16384x5, .f32⟩
  | .hbm, ⟨102, _⟩ => ⟨S_, .f32⟩
  | .hbm, ⟨103, _⟩ => ⟨S8x16384x5, .f32⟩
  | .hbm, ⟨104, _⟩ => ⟨S8x16384x5, .f32⟩
  | .hbm, ⟨105, _⟩ => ⟨S8x16384x5, .i32⟩
  | .hbm, ⟨106, _⟩ => ⟨S8x16384x1, .f32⟩
  | .hbm, ⟨107, _⟩ => ⟨S1x1x5, .f32⟩
  | .hbm, ⟨108, _⟩ => ⟨S8x16384x5, .f32⟩
  | .hbm, ⟨109, _⟩ => ⟨S8x16384x5, .f32⟩
  | .hbm, ⟨110, _⟩ => ⟨S8x16384x5, .f32⟩
  | .hbm, ⟨111, _⟩ => ⟨S8x16384x5, .f32⟩
  | .hbm, ⟨112, _⟩ => ⟨S_, .i32⟩
  | .hbm, ⟨113, _⟩ => ⟨S_, .i32⟩
  | .hbm, ⟨114, _⟩ => ⟨S_, .f32⟩
  | .hbm, ⟨115, _⟩ => ⟨S8x16384x5, .f32⟩
  | .hbm, ⟨116, _⟩ => ⟨S8x16384x5, .f32⟩
  | .hbm, ⟨117, _⟩ => ⟨S_, .f32⟩
  | .hbm, ⟨118, _⟩ => ⟨S8x16384x5, .f32⟩
  | .hbm, ⟨119, _⟩ => ⟨S8x16384x5, .f32⟩
  | .hbm, ⟨120, _⟩ => ⟨S8x16384x5, .i32⟩
  | .hbm, ⟨121, _⟩ => ⟨S8x5x16384, .f32⟩
  | .hbm, ⟨122, _⟩ => ⟨S8x5x16384, .f32⟩
  | .hbm, ⟨123, _⟩ => ⟨S8x5x16384, .i32⟩
  | .hbm, ⟨124, _⟩ => ⟨S8x5x16384, .i32⟩
  | .hbm, ⟨125, _⟩ => ⟨S8x16x512x512, .bf16⟩
  | .hbm, ⟨126, _⟩ => ⟨S8x16x16384, .f32⟩
  | .local _ .vmem, ⟨0, _⟩ => ⟨S1x16x512x512, .bf16⟩
  | .local _ .vmem, ⟨1, _⟩ => ⟨S1x5x256, .i32⟩
  | .local _ .vmem, ⟨2, _⟩ => ⟨S1x5x256, .i32⟩
  | .local _ .vmem, ⟨3, _⟩ => ⟨S1x5x256, .i32⟩
  | .local _ .vmem, ⟨4, _⟩ => ⟨S1x5x256, .i32⟩
  | .local _ .vmem, ⟨5, _⟩ => ⟨S1x5x256, .f32⟩
  | .local _ .vmem, ⟨6, _⟩ => ⟨S1x5x256, .f32⟩
  | .local _ .vmem, ⟨7, _⟩ => ⟨S1x5x256, .f32⟩
  | .local _ .vmem, ⟨8, _⟩ => ⟨S1x5x256, .f32⟩
  | .local _ .vmem, ⟨9, _⟩ => ⟨S1x16x256, .f32⟩
  | .local _ .vmem, ⟨10, _⟩ => ⟨S1x16x256, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_c : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_c_3 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_c_13 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_14 : Ref sig .tc := ⟨.hbm, 112, rfl⟩
abbrev main_c_15 : Ref sig .tc := ⟨.hbm, 113, rfl⟩
abbrev main_call7_v0 : Ref sig .tc := ⟨.hbm, 114, rfl⟩
abbrev main_call7_v1 : Ref sig .tc := ⟨.hbm, 115, rfl⟩
abbrev main_call7_v2 : Ref sig .tc := ⟨.hbm, 116, rfl⟩
abbrev main_call7_v3 : Ref sig .tc := ⟨.hbm, 117, rfl⟩
abbrev main_call7_v4 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x16x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x5x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S8x16384x2_S8x16384x1_0_0_1 : S8x16384x2.Slices ![0, 0, 1] S8x16384x1
  shapeCasts_S8x16384x1_S8x16384 : S8x16384x1.ShapeCasts S8x16384
  bcast_S_S8x16384 : S_.BroadcastsInDim S8x16384 (![] : Fin 0 → Fin S8x16384.rank)
  slices_S8x16384x2_S8x16384x1_0_0_0 : S8x16384x2.Slices ![0, 0, 0] S8x16384x1
  bcast_S8x16384_S8x16384x1_0_1 : S8x16384.BroadcastsInDim S8x16384x1 (![0, 1] : Fin 2 → Fin S8x16384x1.rank)
  bcast_S90_S1x1x90_2 : S90.BroadcastsInDim S1x1x90 (![2] : Fin 1 → Fin S1x1x90.rank)
  bcast_S8x16384x1_S8x16384x90_0_1_2 : S8x16384x1.BroadcastsInDim S8x16384x90 (![0, 1, 2] : Fin 3 → Fin S8x16384x90.rank)
  bcast_S1x1x90_S8x16384x90_0_1_2 : S1x1x90.BroadcastsInDim S8x16384x90 (![0, 1, 2] : Fin 3 → Fin S8x16384x90.rank)
  bcast_S_S8x16384x90 : S_.BroadcastsInDim S8x16384x90 (![] : Fin 0 → Fin S8x16384x90.rank)
  shapeCasts_S8x16384x90_S8x16384x5x18 : S8x16384x90.ShapeCasts S8x16384x5x18
  reducesTo_S8x16384x5x18_S8x16384x5_d3 : S8x16384x5x18.ReducesTo [3] S8x16384x5
  h_S_ : 0 < S_.numel
  reducesTo_S8x16384x5_S8x16384_d2 : S8x16384x5.ReducesTo [2] S8x16384
  bcast_S8x16384x1_S8x16384x5_0_1_2 : S8x16384x1.BroadcastsInDim S8x16384x5 (![0, 1, 2] : Fin 3 → Fin S8x16384x5.rank)
  bcast_S5_S1x1x5_2 : S5.BroadcastsInDim S1x1x5 (![2] : Fin 1 → Fin S1x1x5.rank)
  bcast_S1x1x5_S8x16384x5_0_1_2 : S1x1x5.BroadcastsInDim S8x16384x5 (![0, 1, 2] : Fin 3 → Fin S8x16384x5.rank)
  bcast_S_S8x16384x5 : S_.BroadcastsInDim S8x16384x5 (![] : Fin 0 → Fin S8x16384x5.rank)
  transposes_S8x16384x5_S8x5x16384_0_2_1 : S8x16384x5.Transposes [0, 2, 1] S8x5x16384
  bitsLt_bf16_f32 : FTy.bits .bf16 < FTy.bits .f32
  iota_S512x256_d0_w32 : S512x256.Iotas .tc 32 [0]
  inb_S1x5x256_S1x1x256_0_0_0 : ∀ a, (![0, 0, 0] : Fin 3 → Nat) a + S1x1x256.size a ≤ S1x5x256.size a
  h_S1x1x256 : 0 < S1x1x256.numel
  shapeCasts_S1x1x256_S256 : S1x1x256.ShapeCasts S256
  shapeCasts_S256_S1x256 : S256.ShapeCasts S1x256
  broadcasts_S1x256_S512x256 : S1x256.Broadcasts S512x256
  shapeCasts_S1x256_S1x256 : S1x256.ShapeCasts S1x256
  inb_S1x5x256_S1x1x256_0_1_0 : ∀ a, (![0, 1, 0] : Fin 3 → Nat) a + S1x1x256.size a ≤ S1x5x256.size a
  inb_S1x5x256_S1x1x256_0_2_0 : ∀ a, (![0, 2, 0] : Fin 3 → Nat) a + S1x1x256.size a ≤ S1x5x256.size a
  inb_S1x5x256_S1x1x256_0_3_0 : ∀ a, (![0, 3, 0] : Fin 3 → Nat) a + S1x1x256.size a ≤ S1x5x256.size a
  inb_S1x5x256_S1x1x256_0_4_0 : ∀ a, (![0, 4, 0] : Fin 3 → Nat) a + S1x1x256.size a ≤ S1x5x256.size a
  inb_S1x16x512x512_S1x16x512x512_0_0_0_0 : ∀ a, (![0, 0, 0, 0] : Fin 4 → Nat) a + S1x16x512x512.size a ≤ S1x16x512x512.size a
  h_S1x16x512x512 : 0 < S1x16x512x512.numel
  shapeCasts_S1x16x512x512_S16x512x512 : S1x16x512x512.ShapeCasts S16x512x512
  shapeCasts_S16x512x512_S8192x512 : S16x512x512.ShapeCasts S8192x512
  shapeCasts_S8192x256_S16x512x256 : S8192x256.ShapeCasts S16x512x256
  shapeCasts_S512x256_S1x512x256 : S512x256.ShapeCasts S1x512x256
  broadcasts_S1x512x256_S16x512x256 : S1x512x256.Broadcasts S16x512x256
  reduces_S16x512x256_S16x256 : S16x512x256.Reduces [1] S16x256
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  shapeCasts_S16x256_S1x16x256 : S16x256.ShapeCasts S1x16x256
  dot_S8192x512_S512x256_S8192x256_1_0_0_1_n_n_wf : DotDims.WF S8192x512 S512x256 S8192x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x16x512x512.size a ≤ S8x16x512x512.size a
  hwx0_0 : ∀ i : grid0.Coords, EltTy.bits .bf16 = 32 ∨ (Rect.block (s := S8x16x512x512) S1x16x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x256.size a ≤ S8x5x16384.size a
  hwx0_1 : ∀ i : grid0.Coords, EltTy.bits .i32 = 32 ∨ (Rect.block (s := S8x5x16384) S1x5x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x256.size a ≤ S8x5x16384.size a
  hwx0_2 : ∀ i : grid0.Coords, EltTy.bits .i32 = 32 ∨ (Rect.block (s := S8x5x16384) S1x5x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5x256.size a ≤ S8x5x16384.size a
  hwx0_3 : ∀ i : grid0.Coords, EltTy.bits .f32 = 32 ∨ (Rect.block (s := S8x5x16384) S1x5x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5x256.size a ≤ S8x5x16384.size a
  hwx0_4 : ∀ i : grid0.Coords, EltTy.bits .f32 = 32 ∨ (Rect.block (s := S8x5x16384) S1x5x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x256.size a ≤ S8x16x16384.size a
  hwx0_5 : ∀ i : grid0.Coords, EltTy.bits .f32 = 32 ∨ (Rect.block (s := S8x16x16384) S1x16x256.size (cc0_transform_5 i) (hinb0_5 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

abbrev win0_0 : Pipeline.Window sig grid0 :=
  Pipeline.Window.ofSpec (Memref.whole main_v82) S1x16x512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v80) S1x5x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v81) S1x5x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v78) S1x5x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v79) S1x5x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v83) S1x16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S8x16384x2 : Shape := ⟨3, ![8, 16384, 2]⟩
abbrev S_ : Shape := ⟨0, ![]⟩
abbrev S90 : Shape := ⟨1, ![90]⟩
abbrev S5 : Shape := ⟨1, ![5]⟩
abbrev S8x16384x1 : Shape := ⟨3, ![8, 16384, 1]⟩
abbrev S8x16384 : Shape := ⟨2, ![8, 16384]⟩
abbrev S1x1x90 : Shape := ⟨3, ![1, 1, 90]⟩
abbrev S8x16384x90 : Shape := ⟨3, ![8, 16384, 90]⟩
abbrev S8x16384x5x18 : Shape := ⟨4, ![8, 16384, 5, 18]⟩
abbrev S8x16384x5 : Shape := ⟨3, ![8, 16384, 5]⟩
abbrev S8x16384x5x1 : Shape := ⟨4, ![8, 16384, 5, 1]⟩
abbrev S8x16384x1x5 : Shape := ⟨4, ![8, 16384, 1, 5]⟩
abbrev S8x16384x5x5 : Shape := ⟨4, ![8, 16384, 5, 5]⟩
abbrev S8x16384x25 : Shape := ⟨3, ![8, 16384, 25]⟩
abbrev S8x16384x1x1 : Shape := ⟨4, ![8, 16384, 1, 1]⟩
abbrev S1x1x5 : Shape := ⟨3, ![1, 1, 5]⟩
abbrev S8x409600 : Shape := ⟨2, ![8, 409600]⟩
abbrev S8x16x262144 : Shape := ⟨3, ![8, 16, 262144]⟩
abbrev S8x409600x1 : Shape := ⟨3, ![8, 409600, 1]⟩
abbrev S8x16x409600 : Shape := ⟨3, ![8, 16, 409600]⟩
abbrev S8x16x16384x5x5 : Shape := ⟨5, ![8, 16, 16384, 5, 5]⟩
abbrev S8x1x16384x5x5 : Shape := ⟨5, ![8, 1, 16384, 5, 5]⟩
abbrev S8x16x16384x25 : Shape := ⟨4, ![8, 16, 16384, 25]⟩
abbrev S8x16x16384 : Shape := ⟨3, ![8, 16, 16384]⟩

abbrev nBuf : Space → Nat
  | .hbm => 148
  | .vmem => 0
  | .smem => 0
  | _ => 0

abbrev hbmTy0_0 (i : Nat) : BufTy := match i % 128 with
  | 0 => ⟨S8x16x512x512, .f32⟩
  | 1 => ⟨S8x16384x2, .f32⟩
  | 2 => ⟨S_, .f32⟩
  | 3 => ⟨S90, .f32⟩
  | 4 => ⟨S5, .f32⟩
  | 5 => ⟨S8x16384x1, .f32⟩
  | 6 => ⟨S8x16384, .f32⟩
  | 7 => ⟨S_, .f32⟩
  | 8 => ⟨S8x16384, .f32⟩
  | 9 => ⟨S8x16384, .f32⟩
  | 10 => ⟨S8x16384x1, .f32⟩
  | 11 => ⟨S8x16384, .f32⟩
  | 12 => ⟨S_, .f32⟩
  | 13 => ⟨S8x16384, .f32⟩
  | 14 => ⟨S8x16384, .f32⟩
  | 15 => ⟨S8x16384, .f32⟩
  | 16 => ⟨S8x16384, .f32⟩
  | 17 => ⟨S8x16384x1, .f32⟩
  | 18 => ⟨S1x1x90, .f32⟩
  | 19 => ⟨S8x16384x90, .f32⟩
  | 20 => ⟨S8x16384x90, .f32⟩
  | 21 => ⟨S8x16384x90, .f32⟩
  | 22 => ⟨S_, .f32⟩
  | 23 => ⟨S_, .i32⟩
  | 24 => ⟨S_, .f32⟩
  | 25 => ⟨S8x16384x90, .f32⟩
  | 26 => ⟨S8x16384x90, .f32⟩
  | 27 => ⟨S_, .f32⟩
  | 28 => ⟨S8x16384x90, .f32⟩
  | 29 => ⟨S8x16384x90, .f32⟩
  | 30 => ⟨S8x16384x1, .f32⟩
  | 31 => ⟨S1x1x90, .f32⟩
  | 32 => ⟨S8x16384x90, .f32⟩
  | 33 => ⟨S8x16384x90, .f32⟩
  | 34 => ⟨S8x16384x90, .f32⟩
  | 35 => ⟨S_, .f32⟩
  | 36 => ⟨S_, .i32⟩
  | 37 => ⟨S_, .f32⟩
  | 38 => ⟨S8x16384x90, .f32⟩
  | 39 => ⟨S8x16384x90, .f32⟩
  | 40 => ⟨S_, .f32⟩
  | 41 => ⟨S8x16384x90, .f32⟩
  | 42 => ⟨S8x16384x90, .f32⟩
  | 43 => ⟨S8x16384x1, .f32⟩
  | 44 => ⟨S8x16384x90, .f32⟩
  | 45 => ⟨S8x16384x90, .f32⟩
  | 46 => ⟨S8x16384x90, .f32⟩
  | 47 => ⟨S8x16384x90, .f32⟩
  | 48 => ⟨S8x16384x90, .f32⟩
  | 49 => ⟨S_, .f32⟩
  | 50 => ⟨S8x16384x90, .f32⟩
  | 51 => ⟨S8x16384x90, .f32⟩
  | 52 => ⟨S8x16384x90, .f32⟩
  | 53 => ⟨S_, .f32⟩
  | 54 => ⟨S_, .f32⟩
  | 55 => ⟨S_, .f32⟩
  | 56 => ⟨S_, .f32⟩
  | 57 => ⟨S8x16384x90, .f32⟩
  | 58 => ⟨S8x16384x90, .f32⟩
  | 59 => ⟨S8x16384x5x18, .f32⟩
  | 60 => ⟨S_, .f32⟩
  | 61 => ⟨S8x16384x5, .f32⟩
  | 62 => ⟨S8x16384x1, .f32⟩
  | 63 => ⟨S8x16384x90, .f32⟩
  | 64 => ⟨S8x16384x90, .f32⟩
  | 65 => ⟨S8x16384x90, .f32⟩
  | 66 => ⟨S8x16384x90, .f32⟩
  | 67 => ⟨S8x16384x90, .f32⟩
  | 68 => ⟨S_, .f32⟩
  | 69 => ⟨S8x16384x90, .f32⟩
  | 70 => ⟨S8x16384x90, .f32⟩
  | 71 => ⟨S8x16384x90, .f32⟩
  | 72 => ⟨S_, .f32⟩
  | 73 => ⟨S_, .f32⟩
  | 74 => ⟨S_, .f32⟩
  | 75 => ⟨S_, .f32⟩
  | 76 => ⟨S8x16384x90, .f32⟩
  | 77 => ⟨S8x16384x90, .f32⟩
  | 78 => ⟨S8x16384x5x18, .f32⟩
  | 79 => ⟨S_, .f32⟩
  | 80 => ⟨S8x16384x5, .f32⟩
  | 81 => ⟨S8x16384x5x1, .f32⟩
  | 82 => ⟨S8x16384x1x5, .f32⟩
  | 83 => ⟨S8x16384x5x5, .f32⟩
  | 84 => ⟨S8x16384x5x5, .f32⟩
  | 85 => ⟨S8x16384x5x5, .f32⟩
  | 86 => ⟨S8x16384x25, .f32⟩
  | 87 => ⟨S_, .f32⟩
  | 88 => ⟨S8x16384, .f32⟩
  | 89 => ⟨S8x16384x1x1, .f32⟩
  | 90 => ⟨S8x16384x5x5, .f32⟩
  | 91 => ⟨S8x16384x5x5, .f32⟩
  | 92 => ⟨S8x16384x1, .f32⟩
  | 93 => ⟨S1x1x5, .f32⟩
  | 94 => ⟨S8x16384x5, .f32⟩
  | 95 => ⟨S8x16384x5, .f32⟩
  | 96 => ⟨S8x16384x5, .f32⟩
  | 97 => ⟨S8x16384x5, .f32⟩
  | 98 => ⟨S_, .i32⟩
  | 99 => ⟨S_, .i32⟩
  | 100 => ⟨S_, .f32⟩
  | 101 => ⟨S8x16384x5, .f32⟩
  | 102 => ⟨S8x16384x5, .f32⟩
  | 103 => ⟨S_, .f32⟩
  | 104 => ⟨S8x16384x5, .f32⟩
  | 105 => ⟨S8x16384x5, .f32⟩
  | 106 => ⟨S8x16384x5, .i32⟩
  | 107 => ⟨S8x16384x1, .f32⟩
  | 108 => ⟨S1x1x5, .f32⟩
  | 109 => ⟨S8x16384x5, .f32⟩
  | 110 => ⟨S8x16384x5, .f32⟩
  | 111 => ⟨S8x16384x5, .f32⟩
  | 112 => ⟨S8x16384x5, .f32⟩
  | 113 => ⟨S_, .i32⟩
  | 114 => ⟨S_, .i32⟩
  | 115 => ⟨S_, .f32⟩
  | 116 => ⟨S8x16384x5, .f32⟩
  | 117 => ⟨S8x16384x5, .f32⟩
  | 118 => ⟨S_, .f32⟩
  | 119 => ⟨S8x16384x5, .f32⟩
  | 120 => ⟨S8x16384x5, .f32⟩
  | 121 => ⟨S8x16384x5, .i32⟩
  | 122 => ⟨S8x16384x5x1, .i32⟩
  | 123 => ⟨S_, .i32⟩
  | 124 => ⟨S8x16384x5x1, .i32⟩
  | 125 => ⟨S8x16384x5x1, .i32⟩
  | 126 => ⟨S8x16384x1x5, .i32⟩
  | 127 => ⟨S8x16384x5x5, .i32⟩
  | _ => ⟨S8x16x512x512, .f32⟩

abbrev hbmTy0_1 (i : Nat) : BufTy := match i % 128 with
  | 0 => ⟨S8x16384x5x5, .i32⟩
  | 1 => ⟨S8x16384x5x5, .i32⟩
  | 2 => ⟨S8x409600, .i32⟩
  | 3 => ⟨S8x16x262144, .f32⟩
  | 4 => ⟨S_, .i32⟩
  | 5 => ⟨S8x409600, .i32⟩
  | 6 => ⟨S8x409600, .i1⟩
  | 7 => ⟨S_, .i32⟩
  | 8 => ⟨S8x409600, .i32⟩
  | 9 => ⟨S8x409600, .i32⟩
  | 10 => ⟨S8x409600, .i32⟩
  | 11 => ⟨S8x409600x1, .i32⟩
  | 12 => ⟨S8x16x409600, .f32⟩
  | 13 => ⟨S8x16x16384x5x5, .f32⟩
  | 14 => ⟨S8x1x16384x5x5, .f32⟩
  | 15 => ⟨S8x16x16384x5x5, .f32⟩
  | 16 => ⟨S8x16x16384x5x5, .f32⟩
  | 17 => ⟨S8x16x16384x25, .f32⟩
  | 18 => ⟨S_, .f32⟩
  | 19 => ⟨S8x16x16384, .f32⟩
  | _ => ⟨S8x16x512x512, .f32⟩

abbrev hbmTy (i : Nat) : BufTy := match i / 128 with
  | 0 => hbmTy0_0 i
  | 1 => hbmTy0_1 i
  | _ => ⟨S8x16x512x512, .f32⟩

abbrev bufTy : (tb : Table) → Fin (tcTables nBuf tb) → BufTy
  | .hbm, ⟨i, _⟩ => hbmTy i
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_c : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_c_3 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_11 : Ref sig .tc := ⟨.hbm, 98, rfl⟩
abbrev main_c_12 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_13 : Ref sig .tc := ⟨.hbm, 113, rfl⟩
abbrev main_c_14 : Ref sig .tc := ⟨.hbm, 114, rfl⟩
abbrev main_call7_v0 : Ref sig .tc := ⟨.hbm, 115, rfl⟩
abbrev main_call7_v1 : Ref sig .tc := ⟨.hbm, 116, rfl⟩
abbrev main_call7_v2 : Ref sig .tc := ⟨.hbm, 117, rfl⟩
abbrev main_call7_v3 : Ref sig .tc := ⟨.hbm, 118, rfl⟩
abbrev main_call7_v4 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_15 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_16 : Ref sig .tc := ⟨.hbm, 132, rfl⟩
abbrev main_v89 : Ref sig .tc := ⟨.hbm, 133, rfl⟩
abbrev main_v90 : Ref sig .tc := ⟨.hbm, 134, rfl⟩
abbrev main_c_17 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_18 : Ref sig .tc := ⟨.hbm, 146, rfl⟩
abbrev main_v101 : Ref sig .tc := ⟨.hbm, 147, rfl⟩

abbrev nD : Nat := 1
abbrev τ : Topo := Topo.v7x

variable {F : FTy → Type} [FloatOps F]

class Facts₀ : Prop where
  slices_S8x16384x2_S8x16384x1_0_0_1 : S8x16384x2.Slices ![0, 0, 1] S8x16384x1
  shapeCasts_S8x16384x1_S8x16384 : S8x16384x1.ShapeCasts S8x16384
  bcast_S_S8x16384 : S_.BroadcastsInDim S8x16384 (![] : Fin 0 → Fin S8x16384.rank)
  slices_S8x16384x2_S8x16384x1_0_0_0 : S8x16384x2.Slices ![0, 0, 0] S8x16384x1
  bcast_S8x16384_S8x16384x1_0_1 : S8x16384.BroadcastsInDim S8x16384x1 (![0, 1] : Fin 2 → Fin S8x16384x1.rank)
  bcast_S90_S1x1x90_2 : S90.BroadcastsInDim S1x1x90 (![2] : Fin 1 → Fin S1x1x90.rank)
  bcast_S8x16384x1_S8x16384x90_0_1_2 : S8x16384x1.BroadcastsInDim S8x16384x90 (![0, 1, 2] : Fin 3 → Fin S8x16384x90.rank)
  bcast_S1x1x90_S8x16384x90_0_1_2 : S1x1x90.BroadcastsInDim S8x16384x90 (![0, 1, 2] : Fin 3 → Fin S8x16384x90.rank)
  bcast_S_S8x16384x90 : S_.BroadcastsInDim S8x16384x90 (![] : Fin 0 → Fin S8x16384x90.rank)
  shapeCasts_S8x16384x90_S8x16384x5x18 : S8x16384x90.ShapeCasts S8x16384x5x18
  reducesTo_S8x16384x5x18_S8x16384x5_d3 : S8x16384x5x18.ReducesTo [3] S8x16384x5
  h_S_ : 0 < S_.numel
  bcast_S8x16384x5_S8x16384x5x1_0_1_2 : S8x16384x5.BroadcastsInDim S8x16384x5x1 (![0, 1, 2] : Fin 3 → Fin S8x16384x5x1.rank)
  bcast_S8x16384x5_S8x16384x1x5_0_1_3 : S8x16384x5.BroadcastsInDim S8x16384x1x5 (![0, 1, 3] : Fin 3 → Fin S8x16384x1x5.rank)
  bcast_S8x16384x5x1_S8x16384x5x5_0_1_2_3 : S8x16384x5x1.BroadcastsInDim S8x16384x5x5 (![0, 1, 2, 3] : Fin 4 → Fin S8x16384x5x5.rank)
  bcast_S8x16384x1x5_S8x16384x5x5_0_1_2_3 : S8x16384x1x5.BroadcastsInDim S8x16384x5x5 (![0, 1, 2, 3] : Fin 4 → Fin S8x16384x5x5.rank)
  shapeCasts_S8x16384x5x5_S8x16384x25 : S8x16384x5x5.ShapeCasts S8x16384x25
  reducesTo_S8x16384x25_S8x16384_d2 : S8x16384x25.ReducesTo [2] S8x16384
  bcast_S8x16384_S8x16384x1x1_0_1 : S8x16384.BroadcastsInDim S8x16384x1x1 (![0, 1] : Fin 2 → Fin S8x16384x1x1.rank)
  bcast_S8x16384x1x1_S8x16384x5x5_0_1_2_3 : S8x16384x1x1.BroadcastsInDim S8x16384x5x5 (![0, 1, 2, 3] : Fin 4 → Fin S8x16384x5x5.rank)
  bcast_S5_S1x1x5_2 : S5.BroadcastsInDim S1x1x5 (![2] : Fin 1 → Fin S1x1x5.rank)
  bcast_S8x16384x1_S8x16384x5_0_1_2 : S8x16384x1.BroadcastsInDim S8x16384x5 (![0, 1, 2] : Fin 3 → Fin S8x16384x5.rank)
  bcast_S1x1x5_S8x16384x5_0_1_2 : S1x1x5.BroadcastsInDim S8x16384x5 (![0, 1, 2] : Fin 3 → Fin S8x16384x5.rank)
  bcast_S_S8x16384x5 : S_.BroadcastsInDim S8x16384x5 (![] : Fin 0 → Fin S8x16384x5.rank)
  bcast_S_S8x16384x5x1 : S_.BroadcastsInDim S8x16384x5x1 (![] : Fin 0 → Fin S8x16384x5x1.rank)
  shapeCasts_S8x16384x5x5_S8x409600 : S8x16384x5x5.ShapeCasts S8x409600
  shapeCasts_S8x16x512x512_S8x16x262144 : S8x16x512x512.ShapeCasts S8x16x262144
  bcast_S_S8x409600 : S_.BroadcastsInDim S8x409600 (![] : Fin 0 → Fin S8x409600.rank)
  bcast_S8x409600_S8x409600x1_0_1 : S8x409600.BroadcastsInDim S8x409600x1 (![0, 1] : Fin 2 → Fin S8x409600x1.rank)
  shapeCasts_S8x16x409600_S8x16x16384x5x5 : S8x16x409600.ShapeCasts S8x16x16384x5x5
  bcast_S8x16384x5x5_S8x1x16384x5x5_0_2_3_4 : S8x16384x5x5.BroadcastsInDim S8x1x16384x5x5 (![0, 2, 3, 4] : Fin 4 → Fin S8x1x16384x5x5.rank)
  bcast_S8x1x16384x5x5_S8x16x16384x5x5_0_1_2_3_4 : S8x1x16384x5x5.BroadcastsInDim S8x16x16384x5x5 (![0, 1, 2, 3, 4] : Fin 5 → Fin S8x16x16384x5x5.rank)
  shapeCasts_S8x16x16384x5x5_S8x16x16384x25 : S8x16x16384x5x5.ShapeCasts S8x16x16384x25
  reducesTo_S8x16x16384x25_S8x16x16384_d3 : S8x16x16384x25.ReducesTo [3] S8x16x16384
  gather_S8x16x262144_S8x409600x1_S8x16x409600_1_2_0_0_2_2_1161_wf : GatherDims.WF S8x16x262144 S8x409600x1 S8x16x409600 [1] [2] [0] [2] [0] 2 ![1, 16, 1]

variable [Facts₀]

def gather_S8x16x262144_S8x409600x1_S8x16x409600_1_2_0_0_2_2_1161 : GatherDims S8x16x262144 S8x409600x1 S8x16x409600 where
  offsetDims := [1]
  collapsedSliceDims := [2]
  operandBatchingDims := [0]
  startIndicesBatchingDims := [0]
  startIndexMap := [2]
  indexVectorDim := 2
  sliceSizes := ![1, 16, 1]
  wf := gather_S8x16x262144_S8x409600x1_S8x16x409600_1_2_0_0_2_2_1161_wf

class Facts : Prop extends Facts₀ where

variable [Facts]
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.KernelBody.lean ====
/-
  The kernel body of the window-gather kernel, read at one entry over the extended reals.

  The body builds two dense selection vectors of length 512 per query lane: for h = 0..4 it adds, at the row whose number equals
  the h-th index word, the h-th weight (a one-hot term), starting from zero. It then contracts the resident image block over its
  columns against the column vector (a matrix product into a zero accumulator; the change of float format before it is the identity
  over the extended reals), multiplies by the row vector and sums over the rows. This module states that reading, entry by entry.
-/
import proofs.«166878_j37890201485784_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import proofs.«166878_j37890201485784_2_alg».proof.Proof.LibMatProd

noncomputable section

namespace Cert.KernelBody

open Cert.KernelIdeal Cert.KernelIdeal.Gen Idealize.ShloMosaic Idealize.ShloMosaic.ValueIdx

/-- The one-hot term of a dense selection vector: the weight `w` at the row whose number is the word `i`, zero elsewhere. -/
def sel (j : ℕ) (i : BitVec 32) (w : EReal) : EReal := Scalar.select (IntOp.cmpi .eq (BitVec.ofNat 32 j) i) w 0

section Layout
variable {α : Type}

/-- A row [1,1,256] re-laid as [256]: entry l is the row's entry l. -/
theorem row_flat (v : S1x1x256.Idx → α) (h1 : S1x1x256.ShapeCasts S256) (l : Fin 256) :
    shapeCast S256 v h1 (ix1 l) = v (ix3 (0 : Fin 1) (0 : Fin 1) l) := by
  refine shapeCast_apply v h1 _ _ ?_
  rw [Shape.rowMajor_val_three, Shape.rowMajor_val_one]
  show (0 * 1 + 0) * 256 + l.val = l.val
  omega

/-- A vector [256] re-laid as [1,256] and spread down 512 rows: entry (j, l) is the vector's entry l. -/
theorem spread_vec (v : S256.Idx → α) (h2 : S256.ShapeCasts S1x256) (h3 : S1x256.Broadcasts S512x256)
    (j : Fin 512) (l : Fin 256) :
    broadcastTo S512x256 (shapeCast S1x256 v h2) h3 (ix2 j l) = v (ix1 l) := by
  rw [broadcastTo_1b_ab_apply, shapeCast_a_1a_apply]

/-- A row [1,1,256] re-laid as [256], then as [1,256], then spread down 512 rows: entry (j, l) is the row's entry l. -/
theorem spread_row (v : S1x1x256.Idx → α) (h1 : S1x1x256.ShapeCasts S256) (h2 : S256.ShapeCasts S1x256) (h3 : S1x256.Broadcasts S512x256)
    (j : Fin 512) (l : Fin 256) :
    broadcastTo S512x256 (shapeCast S1x256 (shapeCast S256 v h1) h2) h3 (ix2 j l) = v (ix3 (0 : Fin 1) (0 : Fin 1) l) := by
  rw [spread_vec, row_flat]

/-- Row h of a [1,5,256] block loaded as a [1,1,256] row: entry l of the row is entry (h, l) of the block. -/
theorem ld_row {Val : EltTy → Type} {e : EltTy} (x : S1x5x256.Idx → Val e) (h : Fin 5) (inb : ∀ a, (![0, h.val, 0] : Fin 3 → ℕ) a + S1x1x256.size a ≤ S1x5x256.size a) (l : Fin 256) :
    View.ld x (Rect.unit (s := S1x5x256) ![0, h.val, 0] S1x1x256.size inb) (ix3 (0 : Fin 1) (0 : Fin 1) l) = x (ix3 (0 : Fin 1) h l) := by
  show x _ = x _
  refine congrArg x (funext fun a => Fin.ext ?_)
  match a with
  | ⟨0, _⟩ => rfl
  | ⟨1, _⟩ => show h.val + 1 * 0 = h.val; omega
  | ⟨2, _⟩ => show 0 + 1 * l.val = l.val; omega

end Layout

theorem iota_at (h : S512x256.Iotas .tc 32 [0]) (j : Fin 512) (l : Fin 256) :
    iota .tc S512x256 32 [0] h (ix2 j l) = BitVec.ofNat 32 j.val := by
  show BitVec.ofNat 32 (0 * 512 + j.val) = _
  rw [Nat.zero_mul, Nat.zero_add]

theorem zero_word : (FloatOps.ofBits (F := Ideal) .f32 0#32 : EReal) = 0 := Ideal.ofBits_zero_f32

/-- The comparison of the row counter with a spread row of index words, at (j, l). -/
theorem mask_at (iv : Vec Ideal S1x1x256 .i32) (hi : S512x256.Iotas .tc 32 [0]) (h1 : S1x1x256.ShapeCasts S256) (h2 : S256.ShapeCasts S1x256)
    (h3 : S1x256.Broadcasts S512x256) (j : Fin 512) (l : Fin 256) :
    cmpi .eq (iota .tc S512x256 32 [0] hi) (broadcastTo S512x256 (shapeCast S1x256 (shapeCast S256 iv h1) h2) h3) (ix2 j l)
      = IntOp.cmpi .eq (BitVec.ofNat 32 j.val) (iv (ix3 (0 : Fin 1) (0 : Fin 1) l)) := by
  show IntOp.cmpi .eq (iota .tc S512x256 32 [0] hi (ix2 j l)) (broadcastTo S512x256 (shapeCast S1x256 (shapeCast S256 iv h1) h2) h3 (ix2 j l)) = _
  rw [iota_at, spread_row]

/-- One one-hot term computed in place: the spread weight row where the row counter meets the spread index row, zero elsewhere. -/
theorem onehot_at (iv : Vec Ideal S1x1x256 .i32) (wv : Vec Ideal S1x1x256 .f32) (hi : S512x256.Iotas .tc 32 [0])
    (h1 : S1x1x256.ShapeCasts S256) (h2 : S256.ShapeCasts S1x256) (h3 : S1x256.Broadcasts S512x256)
    (h1' : S1x1x256.ShapeCasts S256) (h2' : S256.ShapeCasts S1x256) (h22 : S1x256.ShapeCasts S1x256) (h3' : S1x256.Broadcasts S512x256)
    (j : Fin 512) (l : Fin 256) :
    select (cmpi .eq (iota .tc S512x256 32 [0] hi) (broadcastTo S512x256 (shapeCast S1x256 (shapeCast S256 iv h1) h2) h3))
        (broadcastTo S512x256 (shapeCast S1x256 (shapeCast S1x256 (shapeCast S256 wv h1') h2') h22) h3')
        (broadcast S512x256 (FloatOps.ofBits (F := Ideal) .f32 0#32)) (ix2 j l)
      = sel j.val (iv (ix3 (0 : Fin 1) (0 : Fin 1) l)) (wv (ix3 (0 : Fin 1) (0 : Fin 1) l)) := by
  rw [select_apply, mask_at, broadcast_apply, shapeCast_self, spread_row, zero_word]
  rfl

/-- One one-hot term from a mask and a weight vector prepared earlier. -/
theorem masked_at (mk : IVec S512x256 1) (w : FVec Ideal S256 .f32) (h2' : S256.ShapeCasts S1x256) (h22 : S1x256.ShapeCasts S1x256)
    (h3' : S1x256.Broadcasts S512x256) (j : Fin 512) (l : Fin 256) :
    select mk (broadcastTo S512x256 (shapeCast S1x256 (shapeCast S1x256 w h2') h22) h3')
        (broadcast S512x256 (FloatOps.ofBits (F := Ideal) .f32 0#32)) (ix2 j l)
      = Scalar.select (mk (ix2 j l)) (w (ix1 l)) 0 := by
  rw [select_apply, broadcast_apply, shapeCast_self, spread_vec, zero_word]

/-- The row counter: entry (j, l) is the word j. -/
abbrev io : IVec S512x256 32 := iota Kind.tc S512x256 32 [0] iota_S512x256_d0_w32

section Steps
variable (iv iv' : Vec Ideal S1x1x256 .i32) (wv wv' : Vec Ideal S1x1x256 .f32) (acc : FVec Ideal S512x256 .f32)
  (w : FVec Ideal S256 .f32) (mk : IVec S512x256 1) (j : Fin 512) (l : Fin 256)

local notation "at0" x => x (ix3 (0 : Fin 1) (0 : Fin 1) l)

theorem pay2_at : k0_pay2 (F := Ideal) iv wv (ix2 j l) = 0 + sel j.val (at0 iv) (at0 wv) := by
  unfold k0_pay2; try dsimp only
  rw [addf_apply, onehot_at, broadcast_apply, zero_word]

theorem pay3_at : k0_pay3 (F := Ideal) iv wv (ix2 j l) = 0 + sel j.val (at0 iv) (at0 wv) := by
  unfold k0_pay3; try dsimp only
  rw [addf_apply, onehot_at, broadcast_apply, zero_word]

theorem pay4_at : k0_pay4 (F := Ideal) wv (ix1 l) = at0 wv := by
  unfold k0_pay4; rw [row_flat]

theorem pay8_at : k0_pay8 (F := Ideal) wv (ix1 l) = at0 wv := by
  unfold k0_pay8; rw [row_flat]

theorem pay12_at : k0_pay12 (F := Ideal) wv (ix1 l) = at0 wv := by
  unfold k0_pay12; rw [row_flat]

theorem pay5_at : k0_pay5 (F := Ideal) iv (ix2 j l) = IntOp.cmpi .eq (BitVec.ofNat 32 j.val) (at0 iv) := by
  unfold k0_pay5; (try dsimp only); rw [mask_at]

theorem pay9_at : k0_pay9 (F := Ideal) io iv (ix2 j l) = IntOp.cmpi .eq (BitVec.ofNat 32 j.val) (at0 iv) := by
  unfold k0_pay9; (try dsimp only); rw [mask_at]

theorem pay13_at : k0_pay13 (F := Ideal) io iv (ix2 j l) = IntOp.cmpi .eq (BitVec.ofNat 32 j.val) (at0 iv) := by
  unfold k0_pay13; (try dsimp only); rw [mask_at]

theorem pay6_at : k0_pay6 (F := Ideal) io acc iv wv (ix2 j l) = acc (ix2 j l) + sel j.val (at0 iv) (at0 wv) := by
  unfold k0_pay6; try dsimp only
  rw [addf_apply, onehot_at]

theorem pay10_at : k0_pay10 (F := Ideal) io acc iv wv (ix2 j l) = acc (ix2 j l) + sel j.val (at0 iv) (at0 wv) := by
  unfold k0_pay10; try dsimp only
  rw [addf_apply, onehot_at]

theorem pay7_at : k0_pay7 (F := Ideal) io acc w mk iv wv (ix2 j l)
    = (acc (ix2 j l) + Scalar.select (mk (ix2 j l)) (w (ix1 l)) 0) + sel j.val (at0 iv) (at0 wv) := by
  unfold k0_pay7; try dsimp only
  rw [addf_apply, onehot_at, addf_apply, masked_at]

theorem pay11_at : k0_pay11 (F := Ideal) io acc w mk iv wv (ix2 j l)
    = (acc (ix2 j l) + Scalar.select (mk (ix2 j l)) (w (ix1 l)) 0) + sel j.val (at0 iv) (at0 wv) := by
  unfold k0_pay11; try dsimp only
  rw [addf_apply, onehot_at, addf_apply, masked_at]

end Steps

section Final
variable {α : Type}

/-- The rows of a [8192,256] array regrouped as [16,512,256]: entry (c, k, l) is entry (512 c + k, l). -/
theorem unflatten_rows (v : S8192x256.Idx → α) (h : S8192x256.ShapeCasts S16x512x256) (c : Fin 16) (k : Fin 512) (l : Fin 256) :
    shapeCast S16x512x256 v h (ix3 c k l) = v (ix2 (⟨c.val * 512 + k.val, by omega⟩ : Fin 8192) l) := by
  refine shapeCast_apply v h _ _ ?_
  rw [Shape.rowMajor_val_three, Shape.rowMajor_val_two]
  rfl

/-- A [1,16,512,512] block with its unit axis dropped and its channel and row axes merged: entry (512 c + k, j) is entry (0, c, k, j). -/
theorem flatten_img (v : S1x16x512x512.Idx → α) (h1 : S1x16x512x512.ShapeCasts S16x512x512) (h2 : S16x512x512.ShapeCasts S8192x512)
    (c : Fin 16) (k : Fin 512) (j : Fin 512) :
    shapeCast S8192x512 (shapeCast S16x512x512 v h1) h2 (ix2 (⟨c.val * 512 + k.val, by omega⟩ : Fin 8192) j) = v (ix4 (0 : Fin 1) c k j) := by
  rw [shapeCast_apply (shapeCast S16x512x512 v h1) h2 _ (ix3 c k j) (by
    rw [Shape.rowMajor_val_three, Shape.rowMajor_val_two]; rfl)]
  refine shapeCast_apply v h1 _ _ ?_
  rw [Shape.rowMajor_val_four, Shape.rowMajor_val_three]
  show ((0 * 16 + c.val) * 512 + k.val) * 512 + j.val = (c.val * 512 + k.val) * 512 + j.val
  omega

/-- A [512,256] plane given a leading unit axis and repeated over 16 channels: entry (c, k, l) is entry (k, l). -/
theorem spread_plane (v : S512x256.Idx → α) (h1 : S512x256.ShapeCasts S1x512x256) (h2 : S1x512x256.Broadcasts S16x512x256)
    (c : Fin 16) (k : Fin 512) (l : Fin 256) :
    broadcastTo S16x512x256 (shapeCast S1x512x256 v h1) h2 (ix3 c k l) = v (ix2 k l) := by
  rw [broadcastTo_apply (shapeCast S1x512x256 v h1) h2 (ix3 c k l) (ix3 (0 : Fin 1) k l) (fun a => by
    match a with
    | ⟨0, _⟩ => rfl
    | ⟨1, _⟩ => rfl
    | ⟨2, _⟩ => rfl)]
  exact shapeCast_ab_1ab_apply v h1 0 k l

set_option backward.isDefEq.respectTransparency.types false in
/-- The index over (c, l) with k inserted on the reduced middle axis. -/
theorem lift_mid (h : S16x512x256.Reduces [1] S16x256) (c : Fin 16) (l : Fin 256) (k : Fin 512) :
    h.lift (ix2 c l) k = ix3 c k l := by
  funext a; refine Fin.ext ?_
  show h.liftVal (ix2 c l) k.val a = _
  match a with
  | ⟨0, _⟩ => rfl
  | ⟨1, _⟩ => rfl
  | ⟨2, _⟩ => rfl

end Final

set_option backward.isDefEq.respectTransparency.types false in
/-- The body's stored value at channel c and lane l: the image block contracted over its columns against the dense column-selection
    vector (four accumulated terms and the fifth added here), times the dense row-selection vector, summed over the rows. -/
theorem pay1_at (v93 v106 : FVec Ideal S512x256 .f32) (v110 : FVec Ideal S256 .f32) (v113 : IVec S512x256 1)
    (v120 : Vec Ideal S1x1x256 .i32) (v122 : Vec Ideal S1x1x256 .f32) (v133 : Vec Ideal S1x16x512x512 .bf16) (c : Fin 16) (l : Fin 256) :
    k0_pay1 (F := Ideal) io v93 v106 v110 v113 v120 v122 v133 (ix3 (0 : Fin 1) c l)
      = ∑ k : Fin 512, (∑ j : Fin 512, v133 (ix4 (0 : Fin 1) c k j) * (v93 (ix2 j l) + Scalar.select (v113 (ix2 j l)) (v110 (ix1 l)) 0))
          * (v106 (ix2 k l) + sel k.val (v120 (ix3 (0 : Fin 1) (0 : Fin 1) l)) (v122 (ix3 (0 : Fin 1) (0 : Fin 1) l))) := by
  unfold k0_pay1; try dsimp only
  rw [shapeCast_ab_1ab_apply]
  refine (Ideal.multiReduction_add_single _ _ _ _ _ (ix2 c l)).trans ?_
  refine Finset.sum_congr rfl fun k _ => ?_
  rw [lift_mid, mulf_apply, unflatten_rows, spread_plane, addf_apply, onehot_at]
  refine congrArg (· * _) ?_
  refine (Cert.MatProd.matmul_plain_zero_apply none _ _ _ _).trans ?_
  refine Finset.sum_congr rfl fun j _ => ?_
  rw [flatten_img, truncf_apply, addf_apply, masked_at]

/-- A dense selection vector built from five (index word, weight) rows of a [1,5,256] pair of blocks: entry (j, l) is the sum, taken
    in row order from zero, of the weights whose index word is j. -/
def dense (xi : Vec Ideal S1x5x256 .i32) (xw : Vec Ideal S1x5x256 .f32) (j : ℕ) (l : Fin 256) : EReal :=
  ((((0 + sel j (xi (ix3 (0 : Fin 1) (0 : Fin 5) l)) (xw (ix3 (0 : Fin 1) (0 : Fin 5) l)))
      + sel j (xi (ix3 (0 : Fin 1) (1 : Fin 5) l)) (xw (ix3 (0 : Fin 1) (1 : Fin 5) l)))
      + sel j (xi (ix3 (0 : Fin 1) (2 : Fin 5) l)) (xw (ix3 (0 : Fin 1) (2 : Fin 5) l)))
      + sel j (xi (ix3 (0 : Fin 1) (3 : Fin 5) l)) (xw (ix3 (0 : Fin 1) (3 : Fin 5) l)))
      + sel j (xi (ix3 (0 : Fin 1) (4 : Fin 5) l)) (xw (ix3 (0 : Fin 1) (4 : Fin 5) l))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- WHAT THE BODY LEAVES in its output block at channel c and lane l, from the five input blocks: the image block contracted over its
    columns against the dense column-selection vector (index words x2, weights x4), times the dense row-selection vector (x1, x3),
    summed over the rows. -/
theorem out_at (x0 : Vec Ideal S1x16x512x512 .bf16) (x1 x2 : Vec Ideal S1x5x256 .i32) (x3 x4 : Vec Ideal S1x5x256 .f32) (c : Fin 16) (l : Fin 256) :
    out0_5 (F := Ideal) x0 x1 x2 x3 x4 (ix3 (0 : Fin 1) c l)
      = ∑ k : Fin 512, (∑ j : Fin 512, x0 (ix4 (0 : Fin 1) c k j) * dense x2 x4 j.val l) * dense x1 x3 k.val l := by
  unfold out0_5
  rw [View.canon_unit_zero hz3]
  refine (pay1_at _ _ _ _ _ _ _ c l).trans ?_
  have e10 : View.ld x1 r0_0 (ix3 (0 : Fin 1) (0 : Fin 1) l) = x1 (ix3 (0 : Fin 1) (0 : Fin 5) l) := ld_row x1 (0 : Fin 5) _ l
  have e11 : View.ld x1 r0_1 (ix3 (0 : Fin 1) (0 : Fin 1) l) = x1 (ix3 (0 : Fin 1) (1 : Fin 5) l) := ld_row x1 (1 : Fin 5) _ l
  have e12 : View.ld x1 r0_2 (ix3 (0 : Fin 1) (0 : Fin 1) l) = x1 (ix3 (0 : Fin 1) (2 : Fin 5) l) := ld_row x1 (2 : Fin 5) _ l
  have e13 : View.ld x1 r0_3 (ix3 (0 : Fin 1) (0 : Fin 1) l) = x1 (ix3 (0 : Fin 1) (3 : Fin 5) l) := ld_row x1 (3 : Fin 5) _ l
  have e14 : View.ld x1 r0_4 (ix3 (0 : Fin 1) (0 : Fin 1) l) = x1 (ix3 (0 : Fin 1) (4 : Fin 5) l) := ld_row x1 (4 : Fin 5) _ l
  have e20 : View.ld x2 r0_0 (ix3 (0 : Fin 1) (0 : Fin 1) l) = x2 (ix3 (0 : Fin 1) (0 : Fin 5) l) := ld_row x2 (0 : Fin 5) _ l
  have e21 : View.ld x2 r0_1 (ix3 (0 : Fin 1) (0 : Fin 1) l) = x2 (ix3 (0 : Fin 1) (1 : Fin 5) l) := ld_row x2 (1 : Fin 5) _ l
  have e22 : View.ld x2 r0_2 (ix3 (0 : Fin 1) (0 : Fin 1) l) = x2 (ix3 (0 : Fin 1) (2 : Fin 5) l) := ld_row x2 (2 : Fin 5) _ l
  have e23 : View.ld x2 r0_3 (ix3 (0 : Fin 1) (0 : Fin 1) l) = x2 (ix3 (0 : Fin 1) (3 : Fin 5) l) := ld_row x2 (3 : Fin 5) _ l
  have e24 : View.ld x2 r0_4 (ix3 (0 : Fin 1) (0 : Fin 1) l) = x2 (ix3 (0 : Fin 1) (4 : Fin 5) l) := ld_row x2 (4 : Fin 5) _ l
  have e30 : View.ld x3 r0_0 (ix3 (0 : Fin 1) (0 : Fin 1) l) = x3 (ix3 (0 : Fin 1) (0 : Fin 5) l) := ld_row x3 (0 : Fin 5) _ l
  have e31 : View.ld x3 r0_1 (ix3 (0 : Fin 1) (0 : Fin 1) l) = x3 (ix3 (0 : Fin 1) (1 : Fin 5) l) := ld_row x3 (1 : Fin 5) _ l
  have e32 : View.ld x3 r0_2 (ix3 (0 : Fin 1) (0 : Fin 1) l) = x3 (ix3 (0 : Fin 1) (2 : Fin 5) l) := ld_row x3 (2 : Fin 5) _ l
  have e33 : View.ld x3 r0_3 (ix3 (0 : Fin 1) (0 : Fin 1) l) = x3 (ix3 (0 : Fin 1) (3 : Fin 5) l) := ld_row x3 (3 : Fin 5) _ l
  have e34 : View.ld x3 r0_4 (ix3 (0 : Fin 1) (0 : Fin 1) l) = x3 (ix3 (0 : Fin 1) (4 : Fin 5) l) := ld_row x3 (4 : Fin 5) _ l
  have e40 : View.ld x4 r0_0 (ix3 (0 : Fin 1) (0 : Fin 1) l) = x4 (ix3 (0 : Fin 1) (0 : Fin 5) l) := ld_row x4 (0 : Fin 5) _ l
  have e41 : View.ld x4 r0_1 (ix3 (0 : Fin 1) (0 : Fin 1) l) = x4 (ix3 (0 : Fin 1) (1 : Fin 5) l) := ld_row x4 (1 : Fin 5) _ l
  have e42 : View.ld x4 r0_2 (ix3 (0 : Fin 1) (0 : Fin 1) l) = x4 (ix3 (0 : Fin 1) (2 : Fin 5) l) := ld_row x4 (2 : Fin 5) _ l
  have e43 : View.ld x4 r0_3 (ix3 (0 : Fin 1) (0 : Fin 1) l) = x4 (ix3 (0 : Fin 1) (3 : Fin 5) l) := ld_row x4 (3 : Fin 5) _ l
  have e44 : View.ld x4 r0_4 (ix3 (0 : Fin 1) (0 : Fin 1) l) = x4 (ix3 (0 : Fin 1) (4 : Fin 5) l) := ld_row x4 (4 : Fin 5) _ l
  have e0 : View.ld x0 r0_5 = x0 := View.ld_unit_zero (S := S1x16x512x512) hz4 _ x0
  refine Finset.sum_congr rfl fun k _ => ?_
  rw [e0, pay11_at, pay6_at, pay3_at, pay8_at, pay9_at, e10, e30, e11, e31, e12, e32, e13, e33, e14, e34]
  refine congrArg (· * _) (Finset.sum_congr rfl fun j _ => ?_)
  rw [pay10_at, pay7_at, pay2_at, pay4_at, pay5_at, pay12_at, pay13_at, e20, e40, e21, e41, e22, e42, e23, e43, e24, e44]
  rfl

end Cert.KernelBody

end
-- ==== Proof.KernelValue.lean ====
/-
  The kernel's output array after the run, as one whole-array function of the five arrays its region finds.

  The grid has 8 x 64 points; point (b, nt) holds the whole image of batch row b and lanes 256 nt .. 256 nt + 255 of the four side
  arrays, and writes block (b, 0, nt) of the output. What a point writes is the body's result of its blocks (Proof/KernelBody.lean), which
  is the block of the whole-array function below; the 512 blocks cover the output.
-/
import proofs.«166878_j37890201485784_2_alg».proof.Proof.Gen.KernelIdeal.Value
import proofs.«166878_j37890201485784_2_alg».proof.Proof.KernelBody
import Idealize.ShloMosaic.Lib.ValueIdx
import Idealize.ShloMosaic.Lib.Pipeline.Value

set_option maxRecDepth 16384

noncomputable section

namespace Cert.KernelValue

open Cert.KernelIdeal Cert.KernelIdeal.Gen Cert.KernelIdeal.Value Cert.KernelBody
open Idealize.ShloMosaic Idealize.ShloMosaic.TcCoe Idealize.SL.Sem Idealize.ShloMosaic.ValueIdx
open Idealize.ShloMosaic.Pipeline (Dat)

/-- A dense selection vector read off whole arrays [8,5,16384] of index words and weights: for batch row b and query n, entry j is the
    sum, taken in order from zero, of the five weights whose index word is j. -/
def denseA (I : S8x5x16384.Idx → BitVec 32) (W : S8x5x16384.Idx → EReal) (b : Fin 8) (n : Fin 16384) (j : ℕ) : EReal :=
  ((((0 + sel j (I (ix3 b (0 : Fin 5) n)) (W (ix3 b (0 : Fin 5) n))) + sel j (I (ix3 b (1 : Fin 5) n)) (W (ix3 b (1 : Fin 5) n))) + sel j (I (ix3 b (2 : Fin 5) n)) (W (ix3 b (2 : Fin 5) n))) + sel j (I (ix3 b (3 : Fin 5) n)) (W (ix3 b (3 : Fin 5) n))) + sel j (I (ix3 b (4 : Fin 5) n)) (W (ix3 b (4 : Fin 5) n))

/-- The kernel's result at batch row b, channel c, query n, from the five arrays the region finds: the image contracted over its
    columns against the dense column-selection vector, times the dense row-selection vector, summed over the rows. -/
def Gk (X : S8x16x512x512.Idx → EReal) (IXT IYT : S8x5x16384.Idx → BitVec 32) (WXT WYT : S8x5x16384.Idx → EReal)
    (b : Fin 8) (c : Fin 16) (n : Fin 16384) : EReal :=
  ∑ k : Fin 512, (∑ j : Fin 512, X (ix4 b c k j) * denseA IYT WYT b n j.val) * denseA IXT WXT b n k.val

/-- The same as one whole-array function. -/
def GkA (X : S8x16x512x512.Idx → EReal) (IXT IYT : S8x5x16384.Idx → BitVec 32) (WXT WYT : S8x5x16384.Idx → EReal) :
    S8x16x16384.Idx → EReal :=
  fun i => Gk X IXT IYT WXT WYT ⟨(i 0).val, (i 0).isLt⟩ ⟨(i 1).val, (i 1).isLt⟩ ⟨(i 2).val, (i 2).isLt⟩

variable (m : (ℓ : Loc nD τ sig) → Buf (Elt Ideal) ℓ) (ρ : Dev nD → PrngReg)

/-- The printed index maps, decided over the grid: the image window follows the batch coordinate only; the four side windows and the
    output window move together, block (b, 0, nt). -/
theorem idx_facts : ∀ t : Fin cfg0.N,
    win0_0.index t (0 : Fin 4) = win0_5.index t (0 : Fin 3) ∧ win0_0.index t (1 : Fin 4) = 0 ∧ win0_0.index t (2 : Fin 4) = 0 ∧ win0_0.index t (3 : Fin 4) = 0
    ∧ win0_1.index t (0 : Fin 3) = win0_5.index t (0 : Fin 3) ∧ win0_1.index t (1 : Fin 3) = 0 ∧ win0_1.index t (2 : Fin 3) = win0_5.index t (2 : Fin 3)
    ∧ win0_2.index t (0 : Fin 3) = win0_5.index t (0 : Fin 3) ∧ win0_2.index t (1 : Fin 3) = 0 ∧ win0_2.index t (2 : Fin 3) = win0_5.index t (2 : Fin 3)
    ∧ win0_3.index t (0 : Fin 3) = win0_5.index t (0 : Fin 3) ∧ win0_3.index t (1 : Fin 3) = 0 ∧ win0_3.index t (2 : Fin 3) = win0_5.index t (2 : Fin 3)
    ∧ win0_4.index t (0 : Fin 3) = win0_5.index t (0 : Fin 3) ∧ win0_4.index t (1 : Fin 3) = 0 ∧ win0_4.index t (2 : Fin 3) = win0_5.index t (2 : Fin 3)
    ∧ win0_5.index t (0 : Fin 3) ≤ 7 ∧ win0_5.index t (1 : Fin 3) = 0 ∧ win0_5.index t (2 : Fin 3) ≤ 63 :=
  (by decide +kernel : ∀ t : Fin grid0.N, _)

/-- The output window's block index at grid point t, in closed form: (t / 64, 0, t % 64). -/
theorem idx_closed : ∀ t : Fin cfg0.N, win0_5.index t (0 : Fin 3) = t.val / 64 ∧ win0_5.index t (1 : Fin 3) = 0 ∧ win0_5.index t (2 : Fin 3) = t.val % 64 :=
  (by decide +kernel : ∀ t : Fin grid0.N, _)

theorem hN : cfg0.N = 512 := by decide

/-- Block t of the output, from the blocks of ANY five arrays of the region's shapes: the body's result of those blocks is block t of
    the whole-array function of the arrays. -/
theorem flushed_core (A0 : S8x16x512x512.Idx → EReal) (A1 A2 : S8x5x16384.Idx → BitVec 32) (A3 A4 : S8x5x16384.Idx → EReal) (t : Fin cfg0.N) :
    (cfg0.win 5).cut (grid0.coords t) (out0_5 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3) (((cfg0.win 4).blk t).view.read (Elt Ideal) A4))
      = ((cfg0.win 5).blk t).view.read (Elt Ideal) (GkA A0 A1 A2 A3 A4) := by
  obtain ⟨f00, f01, f02, f03, f10, f11, f12, f20, f21, f22, f30, f31, f32, f40, f41, f42, f50, f51, f52⟩ := idx_facts t
  funext y
  obtain ⟨u, cc, l, rfl⟩ : ∃ (u : Fin 1) (cc : Fin 16) (l : Fin 256), y = ix3 u cc l := ⟨y 0, y 1, y 2, eq_ix3 y⟩
  obtain rfl : u = 0 := Subsingleton.elim _ _
  have hl : l.val < 256 := l.isLt
  let B : Fin 8 := ⟨win0_5.index t (0 : Fin 3), by omega⟩
  let Nn : Fin 16384 := ⟨win0_5.index t (2 : Fin 3) * 256 + l.val, by omega⟩
  have hemb : ((cfg0.win 5).blk t).view.emb (ix3 (0 : Fin 1) cc l) = (ix3 B cc Nn : S8x16x16384.Idx) := by
    funext a; refine Fin.ext ?_
    match a with
    | ⟨0, _⟩ => show win0_5.index t (0 : Fin 3) * 1 + 1 * 0 = win0_5.index t (0 : Fin 3); omega
    | ⟨1, _⟩ => show win0_5.index t (1 : Fin 3) * 16 + 1 * cc.val = cc.val; omega
    | ⟨2, _⟩ => show win0_5.index t (2 : Fin 3) * 256 + 1 * l.val = win0_5.index t (2 : Fin 3) * 256 + l.val; omega
  have he0 : ∀ k j : Fin 512, ((cfg0.win 0).blk t).view.emb (ix4 (0 : Fin 1) cc k j) = (ix4 B cc k j : S8x16x512x512.Idx) := fun k j => by
    funext a; refine Fin.ext ?_
    match a with
    | ⟨0, _⟩ => show win0_0.index t (0 : Fin 4) * 1 + 1 * 0 = win0_5.index t (0 : Fin 3); omega
    | ⟨1, _⟩ => show win0_0.index t (1 : Fin 4) * 16 + 1 * cc.val = cc.val; omega
    | ⟨2, _⟩ => show win0_0.index t (2 : Fin 4) * 512 + 1 * k.val = k.val; omega
    | ⟨3, _⟩ => show win0_0.index t (3 : Fin 4) * 512 + 1 * j.val = j.val; omega
  have hb0 : ∀ k j : Fin 512, ((cfg0.win 0).blk t).view.read (Elt Ideal) A0 (ix4 (0 : Fin 1) cc k j) = A0 (ix4 B cc k j) := fun k j =>
    congrArg A0 (he0 k j)
  have he1 : ∀ h : Fin 5, ((cfg0.win 1).blk t).view.emb (ix3 (0 : Fin 1) h l) = (ix3 B h Nn : S8x5x16384.Idx) := fun h => by
    funext a; refine Fin.ext ?_
    match a with
    | ⟨0, _⟩ => show win0_1.index t (0 : Fin 3) * 1 + 1 * 0 = win0_5.index t (0 : Fin 3); omega
    | ⟨1, _⟩ => show win0_1.index t (1 : Fin 3) * 5 + 1 * h.val = h.val; omega
    | ⟨2, _⟩ => show win0_1.index t (2 : Fin 3) * 256 + 1 * l.val = win0_5.index t (2 : Fin 3) * 256 + l.val; omega
  have hb1 : ∀ h : Fin 5, ((cfg0.win 1).blk t).view.read (Elt Ideal) A1 (ix3 (0 : Fin 1) h l) = A1 (ix3 B h Nn) := fun h =>
    congrArg A1 (he1 h)
  have he2 : ∀ h : Fin 5, ((cfg0.win 2).blk t).view.emb (ix3 (0 : Fin 1) h l) = (ix3 B h Nn : S8x5x16384.Idx) := fun h => by
    funext a; refine Fin.ext ?_
    match a with
    | ⟨0, _⟩ => show win0_2.index t (0 : Fin 3) * 1 + 1 * 0 = win0_5.index t (0 : Fin 3); omega
    | ⟨1, _⟩ => show win0_2.index t (1 : Fin 3) * 5 + 1 * h.val = h.val; omega
    | ⟨2, _⟩ => show win0_2.index t (2 : Fin 3) * 256 + 1 * l.val = win0_5.index t (2 : Fin 3) * 256 + l.val; omega
  have hb2 : ∀ h : Fin 5, ((cfg0.win 2).blk t).view.read (Elt Ideal) A2 (ix3 (0 : Fin 1) h l) = A2 (ix3 B h Nn) := fun h =>
    congrArg A2 (he2 h)
  have he3 : ∀ h : Fin 5, ((cfg0.win 3).blk t).view.emb (ix3 (0 : Fin 1) h l) = (ix3 B h Nn : S8x5x16384.Idx) := fun h => by
    funext a; refine Fin.ext ?_
    match a with
    | ⟨0, _⟩ => show win0_3.index t (0 : Fin 3) * 1 + 1 * 0 = win0_5.index t (0 : Fin 3); omega
    | ⟨1, _⟩ => show win0_3.index t (1 : Fin 3) * 5 + 1 * h.val = h.val; omega
    | ⟨2, _⟩ => show win0_3.index t (2 : Fin 3) * 256 + 1 * l.val = win0_5.index t (2 : Fin 3) * 256 + l.val; omega
  have hb3 : ∀ h : Fin 5, ((cfg0.win 3).blk t).view.read (Elt Ideal) A3 (ix3 (0 : Fin 1) h l) = A3 (ix3 B h Nn) := fun h =>
    congrArg A3 (he3 h)
  have he4 : ∀ h : Fin 5, ((cfg0.win 4).blk t).view.emb (ix3 (0 : Fin 1) h l) = (ix3 B h Nn : S8x5x16384.Idx) := fun h => by
    funext a; refine Fin.ext ?_
    match a with
    | ⟨0, _⟩ => show win0_4.index t (0 : Fin 3) * 1 + 1 * 0 = win0_5.index t (0 : Fin 3); omega
    | ⟨1, _⟩ => show win0_4.index t (1 : Fin 3) * 5 + 1 * h.val = h.val; omega
    | ⟨2, _⟩ => show win0_4.index t (2 : Fin 3) * 256 + 1 * l.val = win0_5.index t (2 : Fin 3) * 256 + l.val; omega
  have hb4 : ∀ h : Fin 5, ((cfg0.win 4).blk t).view.read (Elt Ideal) A4 (ix3 (0 : Fin 1) h l) = A4 (ix3 B h Nn) := fun h =>
    congrArg A4 (he4 h)
  have hdy : ∀ j : ℕ, dense (((cfg0.win 2).blk t).view.read (Elt Ideal) A2) (((cfg0.win 4).blk t).view.read (Elt Ideal) A4) j l = denseA A2 A4 B Nn j := fun j => by
    unfold dense denseA
    rw [hb2 0, hb2 1, hb2 2, hb2 3, hb2 4, hb4 0, hb4 1, hb4 2, hb4 3, hb4 4]
  have hdx : ∀ j : ℕ, dense (((cfg0.win 1).blk t).view.read (Elt Ideal) A1) (((cfg0.win 3).blk t).view.read (Elt Ideal) A3) j l = denseA A1 A3 B Nn j := fun j => by
    unfold dense denseA
    rw [hb1 0, hb1 1, hb1 2, hb1 3, hb1 4, hb3 0, hb3 1, hb3 2, hb3 3, hb3 4]
  show out0_5 (F := Ideal) _ _ _ _ _ (ix3 (0 : Fin 1) cc l) = GkA A0 A1 A2 A3 A4 (((cfg0.win 5).blk t).view.emb (ix3 (0 : Fin 1) cc l))
  rw [hemb]
  refine (out_at _ _ _ _ _ cc l).trans ?_
  show _ = Gk A0 A1 A2 A3 A4 B cc Nn
  unfold Gk
  refine Finset.sum_congr rfl fun k _ => ?_
  rw [hdx k.val]
  refine congrArg (· * _) (Finset.sum_congr rfl fun j _ => ?_)
  rw [hb0 k j, hdy j.val]

set_option maxHeartbeats 4000000 in
/-- WHAT POINT t WRITES BACK is block t of the whole-array function of the arrays the region finds. -/
theorem flushed_eq (c : Dev nD) (t : Fin cfg0.N) :
    (dats m 0 c).flushed 5 t = ((cfg0.win 5).blk t).view.read (Elt Ideal) (GkA (V m c main_v82) (V m c main_v80) (V m c main_v81) (V m c main_v78) (V m c main_v79)) := by
  show (cfg0.win 5).cut (grid0.coords t) ((dats m 0 c).after 5 t) = _
  rw [after0_5]
  exact flushed_core (V m c main_v82) (V m c main_v80) (V m c main_v81) (V m c main_v78) (V m c main_v79) t

/-- An index of the output array is in point t's block iff each coordinate is in the block's range on its axis. -/
theorem mem_blk (t : Fin cfg0.N) (i : S8x16x16384.Idx) :
    i ∈ ((cfg0.win 5).blk t).view.set ↔ ∀ a : Fin 3, win0_5.index t a * S1x16x256.size a ≤ (i a).val ∧ (i a).val < win0_5.index t a * S1x16x256.size a + S1x16x256.size a := by
  show i ∈ ((View.whole main_v83).slice (win0_5.rect t)).set ↔ _
  rw [View.set_slice_whole, Rect.mem_set_unit]
  exact Iff.rfl

/-- Every index of the output array is in the block of the grid point 64 b + n / 256. -/
theorem cover (i : S8x16x16384.Idx) : ∃ t : Fin cfg0.N, (cfg0.win 5).flush t = true ∧ i ∈ ((cfg0.win 5).blk t).view.set := by
  have h0 : (i 0).val < 8 := (i 0).isLt
  have h1 : (i 1).val < 16 := (i 1).isLt
  have h2 : (i 2).val < 16384 := (i 2).isLt
  let t : Fin cfg0.N := ⟨(i 0).val * 64 + (i 2).val / 256, by rw [hN]; omega⟩
  have tv : t.val = (i 0).val * 64 + (i 2).val / 256 := rfl
  obtain ⟨q0, q1, q2⟩ := idx_closed t
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 16 ≤ (i 1).val ∧ (i 1).val < win0_5.index t (1 : Fin 3) * 16 + 16
    omega
  | ⟨2, _⟩ =>
    show win0_5.index t (2 : Fin 3) * 256 ≤ (i 2).val ∧ (i 2).val < win0_5.index t (2 : Fin 3) * 256 + 256
    omega

set_option maxHeartbeats 4000000 in
/-- THE OUTPUT ARRAY after the run: the whole-array function of the arrays the region finds. -/
theorem final (c : Dev nD) :
    (dats m 0 c).arrAt 5 cfg0.N = GkA (V m c main_v82) (V m c main_v80) (V m c main_v81) (V m c main_v78) (V m c main_v79) :=
  (dats m 0 c).arrAt_eq_of_cover 5 _ (fun t _ => flushed_eq m c t) cover

end Cert.KernelValue

end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.KernelHost.lean ====
/-
  The five arrays the kernel's region finds, as functions of the program's arguments.

  The host operations before the region compute, by the same operations as the reference, the raw weight arrays and the
  index arrays [8,16384,5]; the kernel then normalises each weight row by its own sum (a quotient by the row's sum spread back over
  the row) and transposes all four to [8,5,16384]; the image is passed through a change of float format, the identity over the
  extended reals. Each array is read here at an entry.
-/
import proofs.«166878_j37890201485784_2_alg».proof.Proof.Gen.KernelIdeal.Frame
import proofs.«166878_j37890201485784_2_alg».proof.Proof.Gen.ReferenceIdeal.Read
import proofs.«166878_j37890201485784_2_alg».proof.Proof.LibTypedRef
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelHost

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

set_option maxHeartbeats 4000000 in
/-- The transposed row-index array the region finds is the transpose of the reference's row-index array of the same arguments. -/
theorem V_v80 (c : Dev nD) : (V m c main_v80 : S8x5x16384.Idx → BitVec 32)
    = transpose S8x5x16384 [0, 2, 1] (Cert.ReferenceIdeal.Read.val_main_v71 (F := Ideal) (m ((c : Thread nD τ).loc main_arg1)) (m ((c : Thread nD τ).loc main_arg4))) transposes_S8x16384x5_S8x5x16384_0_2_1 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  simp only [Cert.TypedRef.ofBuf_toBuf, Cert.TypedRef.toBuf_of, Cert.TypedRef.ofBuf_of]
  rfl

set_option maxHeartbeats 4000000 in
/-- The transposed column-index array, likewise. -/
theorem V_v81 (c : Dev nD) : (V m c main_v81 : S8x5x16384.Idx → BitVec 32)
    = transpose S8x5x16384 [0, 2, 1] (Cert.ReferenceIdeal.Read.val_main_v79 (F := Ideal) (m ((c : Thread nD τ).loc main_arg1)) (m ((c : Thread nD τ).loc main_arg4))) transposes_S8x16384x5_S8x5x16384_0_2_1 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  simp only [Cert.TypedRef.ofBuf_toBuf, Cert.TypedRef.toBuf_of, Cert.TypedRef.ofBuf_of]
  rfl

set_option maxHeartbeats 4000000 in
/-- The transposed row weights: the reference's raw row weights, each row divided by its own sum, transposed. -/
theorem V_v78 (c : Dev nD) : (V m c main_v78 : S8x5x16384.Idx → EReal)
    = transpose S8x5x16384 [0, 2, 1] (Host.divf (F := Ideal) (Cert.ReferenceIdeal.Read.val_main_v37 (F := Ideal) (m ((c : Thread nD τ).loc main_arg1)) (m ((c : Thread nD τ).loc main_arg2)) (m ((c : Thread nD τ).loc main_arg3))) (broadcastInDim S8x16384x5 ![0, 1, 2] bcast_S8x16384x1_S8x16384x5_0_1_2 (broadcastInDim S8x16384x1 ![0, 1] bcast_S8x16384_S8x16384x1_0_1 (Host.reduceAdd (F := Ideal) (Cert.ReferenceIdeal.Read.val_main_v37 (F := Ideal) (m ((c : Thread nD τ).loc main_arg1)) (m ((c : Thread nD τ).loc main_arg2)) (m ((c : Thread nD τ).loc main_arg3))) (constant (F := Ideal) S_ .f32 0x00000000#32) reducesTo_S8x16384x5_S8x16384_d2 h_S_)))) transposes_S8x16384x5_S8x5x16384_0_2_1 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  simp only [Cert.TypedRef.ofBuf_toBuf, Cert.TypedRef.toBuf_of, Cert.TypedRef.ofBuf_of]
  rfl

set_option maxHeartbeats 4000000 in
/-- The transposed column weights, likewise. -/
theorem V_v79 (c : Dev nD) : (V m c main_v79 : S8x5x16384.Idx → EReal)
    = transpose S8x5x16384 [0, 2, 1] (Host.divf (F := Ideal) (Cert.ReferenceIdeal.Read.val_main_v53 (F := Ideal) (m ((c : Thread nD τ).loc main_arg1)) (m ((c : Thread nD τ).loc main_arg2)) (m ((c : Thread nD τ).loc main_arg3))) (broadcastInDim S8x16384x5 ![0, 1, 2] bcast_S8x16384x1_S8x16384x5_0_1_2 (broadcastInDim S8x16384x1 ![0, 1] bcast_S8x16384_S8x16384x1_0_1 (Host.reduceAdd (F := Ideal) (Cert.ReferenceIdeal.Read.val_main_v53 (F := Ideal) (m ((c : Thread nD τ).loc main_arg1)) (m ((c : Thread nD τ).loc main_arg2)) (m ((c : Thread nD τ).loc main_arg3))) (constant (F := Ideal) S_ .f32 0x00000000#32) reducesTo_S8x16384x5_S8x16384_d2 h_S_)))) transposes_S8x16384x5_S8x5x16384_0_2_1 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  simp only [Cert.TypedRef.ofBuf_toBuf, Cert.TypedRef.toBuf_of, Cert.TypedRef.ofBuf_of]
  rfl

set_option maxHeartbeats 4000000 in
/-- The image the region finds is the image argument: the change of float format is the identity over the extended reals. -/
theorem V_v82 (c : Dev nD) : (V m c main_v82 : S8x16x512x512.Idx → EReal) = m ((c : Thread nD τ).loc main_arg0) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  try simp only [Cert.TypedRef.ofBuf_toBuf, Cert.TypedRef.toBuf_of, Cert.TypedRef.ofBuf_of]
  rfl

/-- An index array [8,16384,5] transposed to [8,5,16384], read at (b, h, n). -/
theorem tr_at {α : Type} (I : S8x16384x5.Idx → α) (b : Fin 8) (h : Fin 5) (n : Fin 16384) :
    transpose S8x5x16384 [0, 2, 1] I transposes_S8x16384x5_S8x5x16384_0_2_1 (ix3 b h n) = I (ix3 b n h) :=
  transpose_ix3_021_apply I _ b h n

/-- The host's quotient at an entry, over the extended reals. -/
theorem hostDivf_at {s : Shape} (x y : FVec Ideal s .f32) (i : s.Idx) : Host.divf (F := Ideal) x y i = Ideal.div (x i) (y i) := rfl

/-- A weight array [8,16384,5] with each row divided by the row's sum (from zero), transposed to [8,5,16384], read at (b, h, n). -/
theorem norm_at (A : S8x16384x5.Idx → EReal) (b : Fin 8) (h : Fin 5) (n : Fin 16384) :
    (transpose S8x5x16384 [0, 2, 1] (Host.divf (F := Ideal) A (broadcastInDim S8x16384x5 ![0, 1, 2] bcast_S8x16384x1_S8x16384x5_0_1_2 (broadcastInDim S8x16384x1 ![0, 1] bcast_S8x16384_S8x16384x1_0_1 (Host.reduceAdd (F := Ideal) A (constant (F := Ideal) S_ .f32 0x00000000#32) reducesTo_S8x16384x5_S8x16384_d2 h_S_)))) transposes_S8x16384x5_S8x5x16384_0_2_1) (ix3 b h n)
      = Ideal.div (A (ix3 b n h)) (∑ h' : Fin 5, A (ix3 b n h')) := by
  refine (tr_at _ b h n).trans ?_
  rw [hostDivf_at]
  refine congrArg (Ideal.div (A (ix3 b n h))) ?_
  rw [broadcastInDim_apply _ bcast_S8x16384x1_S8x16384x5_0_1_2 _ (ix3 b n h) (ix3 b n (0 : Fin 1)) (fun a => match a with
    | ⟨0, _⟩ => by show b.val = if (8 : Nat) = 1 then 0 else b.val; rw [if_neg (by decide)]
    | ⟨1, _⟩ => by show n.val = if (16384 : Nat) = 1 then 0 else n.val; rw [if_neg (by decide)]
    | ⟨2, _⟩ => by show 0 = if (1 : Nat) = 1 then 0 else h.val; rw [if_pos rfl])]
  rw [broadcastInDim_apply _ bcast_S8x16384_S8x16384x1_0_1 _ (ix3 b n (0 : Fin 1)) (ix2 b n) (fun a => match a with
    | ⟨0, _⟩ => by show b.val = if (8 : Nat) = 1 then 0 else b.val; rw [if_neg (by decide)]
    | ⟨1, _⟩ => by show n.val = if (16384 : Nat) = 1 then 0 else n.val; rw [if_neg (by decide)])]
  simp only [Host.reduceAdd, Ideal.hostReduceAdd_def]
  rw [Ideal.hostReduceAdd_single reducesTo_S8x16384x5_S8x16384_d2 (by decide)]
  show Ideal.ofBits .f32 0x00000000#32 + _ = _
  rw [Ideal.ofBits_zero_f32, zero_add]
  refine Finset.sum_congr rfl fun k _ => ?_
  exact congrArg A (funext fun a => Fin.ext (by match a with | ⟨0, _⟩ => rfl | ⟨1, _⟩ => rfl | ⟨2, _⟩ => rfl))

end Cert.KernelHost

end
-- ==== Proof.LibBatchedGather.lean ====
import Idealize.ShloMosaic.PureOps.ShapeOps
import Idealize.ShloMosaic.PureOps.Dims
import Idealize.ShloMosaic.Lib.ValueIdx

/-!
# A batched `stablehlo.gather` read at an entry

Operand `x : [B, C, P]`, start indices `idx : [B, Q, 1]`, result `[B, C, Q]`. Axis 0 of the operand is a batching
axis paired with axis 0 of the start indices, axis 1 is an offset axis (the whole channel range is kept), axis 2 is
collapsed and is the one axis the start index addresses. Result element `(b, c, q)` is therefore the operand's at
`(b, c, p)`, where `p` is the start index `idx[b, q, 0]` read as a signed integer and clamped into `[0, P − 1]`.
-/

namespace Cert.LibBatchedGather

open Idealize.ShloMosaic Idealize.ShloMosaic.ValueIdx

/-- Two axes with different numbers: the one is not in the other's one-element list. -/
private theorem not_mem_single {n : Nat} {a b : Fin n} (h : a.val ≠ b.val) : a ∉ [b] :=
  fun hm => h (congrArg Fin.val (List.mem_singleton.mp hm))

/-- The dimension numbers of a gather that picks, per batch row `b` and per query `q`, the column `idx[b, q, 0]` of
    every channel: operand `[B, C, P]`, start indices `[B, Q, 1]`, result `[B, C, Q]`; offset_dims `[1]`,
    collapsed_slice_dims `[2]`, operand_batching_dims `[0]`, start_indices_batching_dims `[0]`, start_index_map `[2]`,
    index_vector_dim 2, slice_sizes `[1, C, 1]`. Their conditions `wf` are decided on a program's literal shapes. -/
abbrev batchedDims (B C P Q : Nat)
    (wf : GatherDims.WF ⟨3, ![B, C, P]⟩ ⟨3, ![B, Q, 1]⟩ ⟨3, ![B, C, Q]⟩ [1] [2] [0] [2] [0] 2 ![1, C, 1]) :
    GatherDims ⟨3, ![B, C, P]⟩ ⟨3, ![B, Q, 1]⟩ ⟨3, ![B, C, Q]⟩ where
  offsetDims := [1]
  collapsedSliceDims := [2]
  operandBatchingDims := [0]
  startIndicesBatchingDims := [0]
  startIndexMap := [2]
  indexVectorDim := 2
  sliceSizes := ![1, C, 1]
  wf := wf

/-- THE BATCHED GATHER READ AT `(b, c, q)`: the operand at `(b, c, p)` with `p` the start index `idx[b, q, 0]`, read
    signed and clamped into `[0, P − 1]`. -/
theorem gather_batched_apply {α : Type} {B C P Q w : Nat} (hP : 0 < P)
    (wf : GatherDims.WF ⟨3, ![B, C, P]⟩ ⟨3, ![B, Q, 1]⟩ ⟨3, ![B, C, Q]⟩ [1] [2] [0] [2] [0] 2 ![1, C, 1])
    (x : (⟨3, ![B, C, P]⟩ : Shape).Idx → α) (idx : IVec ⟨3, ![B, Q, 1]⟩ w) (b : Fin B) (c : Fin C) (q : Fin Q) :
    Host.gather (batchedDims B C P Q wf) x idx (ix3 b c q)
      = x (ix3 b c ⟨min (idx (ix3 b q ⟨0, Nat.one_pos⟩)).toInt.toNat (P - 1), by omega⟩) := by
  unfold Host.gather
  congr 1
  funext a
  match a with
  | ⟨0, h0⟩ =>
    -- axis 0 is the batching axis: no start, no offset, the batch coordinate is the result's coordinate on axis 0
    refine Fin.ext ?_
    show (batchedDims B C P Q wf).start (ix3 b c q) idx ⟨0, h0⟩ + (batchedDims B C P Q wf).batchCoord (ix3 b c q) ⟨0, h0⟩
      + (batchedDims B C P Q wf).offCoord (ix3 b c q) ⟨0, h0⟩ = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, h0⟩ : Fin 3) ∈ (batchedDims B C P Q wf).operandBatchingDims from List.mem_singleton.mpr rfl)]
    rfl
  | ⟨1, h1⟩ =>
    -- axis 1 is the offset axis: not addressed by the start index, not batching, the offset coordinate is the
    -- result's coordinate on axis 1
    refine Fin.ext ?_
    show (batchedDims B C P Q wf).start (ix3 b c q) idx ⟨1, h1⟩ + (batchedDims B C P Q wf).batchCoord (ix3 b c q) ⟨1, h1⟩
      + (batchedDims B C P Q wf).offCoord (ix3 b c q) ⟨1, h1⟩ = c.val
    rw [GatherDims.batchCoord_eq_zero _ _ _ (not_mem_single (show (1 : Nat) ≠ 0 by decide))]
    unfold GatherDims.start
    rw [dif_neg (show (⟨1, h1⟩ : Fin 3) ∉ (batchedDims B C P Q wf).startIndexMap from
      not_mem_single (show (1 : Nat) ≠ 2 by decide))]
    simp only [Nat.zero_add, Nat.add_zero]
    unfold GatherDims.offCoord
    rw [dif_pos (show (⟨1, h1⟩ : Fin 3) ∈ (batchedDims B C P Q wf).sKept from
      (GatherDims.mem_sKept _ _).mpr ⟨not_mem_single (show (1 : Nat) ≠ 2 by decide),
        not_mem_single (show (1 : Nat) ≠ 0 by decide)⟩)]
    rfl
  | ⟨2, h2⟩ =>
    -- axis 2 is collapsed and addressed by the start index: the clamped start, no batch coordinate, no offset
    refine Fin.ext ?_
    show (batchedDims B C P Q wf).start (ix3 b c q) idx ⟨2, h2⟩ + (batchedDims B C P Q wf).batchCoord (ix3 b c q) ⟨2, h2⟩
      + (batchedDims B C P Q wf).offCoord (ix3 b c q) ⟨2, h2⟩ = min (idx (ix3 b q ⟨0, Nat.one_pos⟩)).toInt.toNat (P - 1)
    rw [GatherDims.batchCoord_eq_zero _ _ _ (not_mem_single (show (2 : Nat) ≠ 0 by decide)),
      GatherDims.offCoord_eq_zero _ _ _ (fun h => ((GatherDims.mem_sKept _ _).mp h).1 (List.mem_singleton.mpr rfl))]
    simp only [Nat.add_zero]
    unfold GatherDims.start
    rw [dif_pos (show (⟨2, h2⟩ : Fin 3) ∈ (batchedDims B C P Q wf).startIndexMap from List.mem_singleton.mpr rfl)]
    have hsi : (batchedDims B C P Q wf).siIdx (ix3 b c q)
        ⟨List.idxOf (⟨2, h2⟩ : Fin 3) (batchedDims B C P Q wf).startIndexMap,
          List.idxOf_lt_length_iff.2 (List.mem_singleton.mpr rfl)⟩ = ix3 b q ⟨0, Nat.one_pos⟩ := by
      funext d; refine Fin.ext ?_
      match d with
      | ⟨0, _⟩ => rfl
      | ⟨1, _⟩ => rfl
      | ⟨2, _⟩ => rfl
    rw [hsi]
    rfl

end Cert.LibBatchedGather
-- ==== Proof.RefAt.lean ====
import proofs.«166878_j37890201485784_2_alg».proof.Proof.Gen.ReferenceIdeal.Read
import proofs.«166878_j37890201485784_2_alg».proof.Proof.LibBatchedGather
import Idealize.ShloMosaic.Lib.ValueIdx
import Idealize.ShloMosaic.PureOps.Ideal.Laws

/-!
# The reference program's result at one output entry

The reference computes, for every batch `b`, channel `c` and point `n`, a weighted sum over the 5 by 5 window of
pixels around the point: the image `[8, 16, 512, 512]` is flattened to `[8, 16, 262144]`, the row indices
`IX[b, n, h]` and column indices `IY[b, n, h']` are combined into the flat pixel index `IX * 512 + IY`, a batched
gather reads the 25 pixels of every channel, and the pixels are multiplied by the normalised separable weights
`A[b, n, h] * Bw[b, n, h'] / ∑ A * Bw` and summed.

When every row and column index is the word of a natural number below 512, the flat index does not wrap (it is below
`2 ^ 18`), is not negative (so the branch that adds 262144 to a negative index is not taken), lies in `[0, 262143]`
(so the gather's clamp is the identity), and the flattened image at `IX * 512 + IY` is the image at `(IX, IY)`.
The lemmas below read the program one operation at a time from the result backwards: the weights (`v58_at`,
`v60_at`, `v63_at`), the flat index (`v87_at`, `v93_at`), the gathered pixel (`v95_at`, `v96_at`), and the
final sum (`ref_at_window`, `ref_at`).
-/

noncomputable section

namespace Cert.RefAt

open Cert.ReferenceIdeal Cert.ReferenceIdeal.Read Idealize.ShloMosaic Idealize.ShloMosaic.ValueIdx
open scoped BigOperators

/-- The row of position `k` of a 5 by 5 window read row by row. -/
abbrev hi (k : Fin 25) : Fin 5 := ⟨k.val / 5, by omega⟩
/-- The column of position `k` of a 5 by 5 window read row by row. -/
abbrev lo (k : Fin 25) : Fin 5 := ⟨k.val % 5, by omega⟩
/-- The place of window entry `(h, h')` of point `n` among the `16384 * 25` gathered places of one batch. -/
abbrev flatPos (n : Fin 16384) (h h' : Fin 5) : Fin 409600 := ⟨n.val * 25 + h.val * 5 + h'.val, by omega⟩
/-- The place of pixel `(X, Y)` in a `512 * 512` image read row by row. -/
abbrev pix (X Y : Fin 512) : Fin 262144 := ⟨X.val * 512 + Y.val, by omega⟩

section Weights
variable (x1 : (⟨S8x16384x2, .f32⟩ : BufTy).Contents (Elt Ideal)) (x2 : (⟨S_, .f32⟩ : BufTy).Contents (Elt Ideal)) (x3 : (⟨S90, .f32⟩ : BufTy).Contents (Elt Ideal))

/-- The outer product of the two one-axis weights at `(b, n, h, h')`. -/
theorem v58_at (b : Fin 8) (n : Fin 16384) (h h' : Fin 5) :
    val_main_v58 (F := Ideal) x1 x2 x3 (ix4 b n h h')
      = val_main_v37 (F := Ideal) x1 x2 x3 (ix3 b n h) * val_main_v53 (F := Ideal) x1 x2 x3 (ix3 b n h') := by
  have e1 : idx_main_v54 (idx_main_v56 (ix4 b n h h')) = ix3 b n h := by
    funext a; match a with | ⟨0, _⟩ => rfl | ⟨1, _⟩ => rfl | ⟨2, _⟩ => rfl
  have e2 : idx_main_v55 (idx_main_v57 (ix4 b n h h')) = ix3 b n h' := by
    funext a; match a with | ⟨0, _⟩ => rfl | ⟨1, _⟩ => rfl | ⟨2, _⟩ => rfl
  rw [val_main_v58_apply, val_main_v56_apply, val_main_v54_apply, val_main_v57_apply, val_main_v55_apply, e1, e2,
    Ideal.mulf_def]

/-- The normaliser at `(b, n)`: the sum of the 25 weight products of the window. -/
theorem v60_at (b : Fin 8) (n : Fin 16384) :
    val_main_v60 (F := Ideal) x1 x2 x3 (ix2 b n)
      = ∑ k : Fin 25, val_main_v37 (F := Ideal) x1 x2 x3 (ix3 b n (hi k)) * val_main_v53 (F := Ideal) x1 x2 x3 (ix3 b n (lo k)) := by
  rw [val_main_v60_apply, val_main_cst_10_apply, Ideal.ofBits_def, Ideal.ofBits_zero_f32, zero_add]
  refine Finset.sum_congr rfl fun k _ => ?_
  have e : idx_main_v59 (idx_main_v60 (ix2 b n) k) = ix4 b n (hi k) (lo k) := by
    funext a; match a with
    | ⟨0, _⟩ => exact Fin.ext (by show ((b.val * 16384 + n.val) * 25 + k.val) / 409600 = b.val; omega)
    | ⟨1, _⟩ => exact Fin.ext (by show ((b.val * 16384 + n.val) * 25 + k.val) / 25 % 16384 = n.val; omega)
    | ⟨2, _⟩ => exact Fin.ext (by show ((b.val * 16384 + n.val) * 25 + k.val) / 5 % 5 = k.val / 5; omega)
    | ⟨3, _⟩ => exact Fin.ext (by show ((b.val * 16384 + n.val) * 25 + k.val) % 5 = k.val % 5; omega)
  rw [val_main_v59_apply, e, v58_at]

/-- The normalised weight at `(b, n, h, h')`. -/
theorem v63_at (b : Fin 8) (n : Fin 16384) (h h' : Fin 5) :
    val_main_v63 (F := Ideal) x1 x2 x3 (ix4 b n h h')
      = Ideal.div (val_main_v37 (F := Ideal) x1 x2 x3 (ix3 b n h) * val_main_v53 (F := Ideal) x1 x2 x3 (ix3 b n h'))
          (∑ k : Fin 25, val_main_v37 (F := Ideal) x1 x2 x3 (ix3 b n (hi k)) * val_main_v53 (F := Ideal) x1 x2 x3 (ix3 b n (lo k))) := by
  have e : idx_main_v61 (idx_main_v62 (ix4 b n h h')) = ix2 b n := by
    funext a; match a with | ⟨0, _⟩ => rfl | ⟨1, _⟩ => rfl
  rw [val_main_v63_apply, Ideal.hostDivf_def, v58_at, val_main_v62_apply, val_main_v61_apply, e, v60_at]

end Weights

section Words

/-- A 32-bit word written from a natural number below `2 ^ 31` reads back, as a signed integer, as that number. -/
theorem toInt_ofNat_small (m : Nat) (hm : m < 2 ^ 31) : (BitVec.ofNat 32 m).toInt = (m : Int) := by
  have h0 : (BitVec.ofNat 32 m).toNat = m := by rw [BitVec.toNat_ofNat]; omega
  rw [BitVec.toInt_eq_toNat_of_lt (by rw [h0]; omega), h0]

/-- Such a word is not negative: the signed comparison with zero answers the bit `0`. -/
theorem slt_zero_small (m : Nat) (hm : m < 2 ^ 31) : IntOp.cmpi .slt (BitVec.ofNat 32 m) 0#32 = 0#1 := by
  show BitVec.ofBool (decide ((BitVec.ofNat 32 m).toInt < (0#32 : BitVec 32).toInt)) = 0#1
  rw [toInt_ofNat_small m hm, show (0#32 : BitVec 32).toInt = 0 from by decide, decide_eq_false (by omega)]
  rfl

end Words

section Flat
variable (x1 : (⟨S8x16384x2, .f32⟩ : BufTy).Contents (Elt Ideal)) (x4 : (⟨S5, .f32⟩ : BufTy).Contents (Elt Ideal))
  (ixN iyN : Fin 8 → Fin 16384 → Fin 5 → Fin 512)
  (hix : ∀ b n h, val_main_v71 (F := Ideal) x1 x4 (ix3 b n h) = BitVec.ofNat 32 (ixN b n h).val)
  (hiy : ∀ b n h, val_main_v79 (F := Ideal) x1 x4 (ix3 b n h) = BitVec.ofNat 32 (iyN b n h).val)
include hix hiy

/-- The flat pixel index of window entry `(h, h')` of point `n`: row index times 512 plus column index, without wrapping. -/
theorem v87_at (b : Fin 8) (n : Fin 16384) (h h' : Fin 5) :
    val_main_v87 (F := Ideal) x1 x4 (ix2 b (flatPos n h h'))
      = BitVec.ofNat 32 ((ixN b n h).val * 512 + (iyN b n h').val) := by
  have e : idx_main_v87 (ix2 b (flatPos n h h')) = ix4 b n h h' := by
    funext a; match a with
    | ⟨0, _⟩ => exact Fin.ext (by show (b.val * 409600 + (n.val * 25 + h.val * 5 + h'.val)) / 409600 = b.val; omega)
    | ⟨1, _⟩ => exact Fin.ext (by show (b.val * 409600 + (n.val * 25 + h.val * 5 + h'.val)) / 25 % 16384 = n.val; omega)
    | ⟨2, _⟩ => exact Fin.ext (by show (b.val * 409600 + (n.val * 25 + h.val * 5 + h'.val)) / 5 % 5 = h.val; omega)
    | ⟨3, _⟩ => exact Fin.ext (by show (b.val * 409600 + (n.val * 25 + h.val * 5 + h'.val)) % 5 = h'.val; omega)
  have e1 : idx_main_v80 (idx_main_v84 (ix4 b n h h')) = ix3 b n h := by
    funext a; match a with | ⟨0, _⟩ => rfl | ⟨1, _⟩ => rfl | ⟨2, _⟩ => rfl
  have e2 : idx_main_v83 (idx_main_v85 (ix4 b n h h')) = ix3 b n h' := by
    funext a; match a with | ⟨0, _⟩ => rfl | ⟨1, _⟩ => rfl | ⟨2, _⟩ => rfl
  rw [val_main_v87_apply, e, val_main_v86_apply, val_main_v84_apply, val_main_v82_apply, val_main_v80_apply, e1,
    val_main_v81_apply, val_main_c_15_apply, val_main_v85_apply, val_main_v83_apply, e2, hix, hiy]
  show BitVec.ofNat 32 (ixN b n h).val * BitVec.ofNat 32 512 + BitVec.ofNat 32 (iyN b n h').val = _
  rw [← BitVec.ofNat_mul, ← BitVec.ofNat_add]

/-- The index handed to the gather: the flat pixel index is not negative, so the wrap-around branch is not taken. -/
theorem v93_at (b : Fin 8) (n : Fin 16384) (h h' : Fin 5) :
    val_main_v93 (F := Ideal) x1 x4 (ix2 b (flatPos n h h'))
      = BitVec.ofNat 32 ((ixN b n h).val * 512 + (iyN b n h').val) := by
  have hX := (ixN b n h).isLt
  have hY := (iyN b n h').isLt
  rw [val_main_v93_apply, val_main_v90_apply, val_main_v89_apply, val_main_c_16_apply, v87_at x1 x4 ixN iyN hix hiy,
    slt_zero_small _ (by omega), select_zero]

end Flat

section Gathered
variable (x0 : (⟨S8x16x512x512, .f32⟩ : BufTy).Contents (Elt Ideal))
  (x1 : (⟨S8x16384x2, .f32⟩ : BufTy).Contents (Elt Ideal)) (x4 : (⟨S5, .f32⟩ : BufTy).Contents (Elt Ideal))

/-- The gather at `(b, c, q)`, when the start index there is the word of a place `p` of the flattened image: the
    flattened image at `(b, c, p)` (the clamp into `[0, 262143]` does nothing). -/
theorem v95_at (b : Fin 8) (c : Fin 16) (q : Fin 409600) (p : Fin 262144)
    (hp : val_main_v94 (F := Ideal) x1 x4 (ix3 b q ⟨0, Nat.one_pos⟩) = BitVec.ofNat 32 p.val) :
    val_main_v95 (F := Ideal) x0 x1 x4 (ix3 b c q) = val_main_v88 (F := Ideal) x0 (ix3 b c p) := by
  have hlt := p.isLt
  unfold val_main_v95
  refine (Cert.LibBatchedGather.gather_batched_apply (by decide) _ (val_main_v88 (F := Ideal) x0)
    (val_main_v94 (F := Ideal) x1 x4) b c q).trans ?_
  refine congrArg (val_main_v88 (F := Ideal) x0) (congrArg (ix3 b c) (Fin.ext ?_))
  show min (val_main_v94 (F := Ideal) x1 x4 (ix3 b q ⟨0, Nat.one_pos⟩)).toInt.toNat (262144 - 1) = p.val
  rw [hp, toInt_ofNat_small _ (by omega)]
  omega

variable (ixN iyN : Fin 8 → Fin 16384 → Fin 5 → Fin 512)
  (hix : ∀ b n h, val_main_v71 (F := Ideal) x1 x4 (ix3 b n h) = BitVec.ofNat 32 (ixN b n h).val)
  (hiy : ∀ b n h, val_main_v79 (F := Ideal) x1 x4 (ix3 b n h) = BitVec.ofNat 32 (iyN b n h).val)
include hix hiy

/-- The gathered pixel of window entry `(h, h')` of point `n`, channel `c`: the image at the row and column indices. -/
theorem v96_at (b : Fin 8) (c : Fin 16) (n : Fin 16384) (h h' : Fin 5) :
    val_main_v96 (F := Ideal) x0 x1 x4 (ix5 b c n h h') = x0 (ix4 b c (ixN b n h) (iyN b n h')) := by
  have hX := (ixN b n h).isLt
  have hY := (iyN b n h').isLt
  have e : idx_main_v96 (ix5 b c n h h') = ix3 b c (flatPos n h h') := by
    funext a; match a with
    | ⟨0, _⟩ => exact Fin.ext (by show ((((b.val * 16 + c.val) * 16384 + n.val) * 5 + h.val) * 5 + h'.val) / 6553600 = b.val; omega)
    | ⟨1, _⟩ => exact Fin.ext (by show ((((b.val * 16 + c.val) * 16384 + n.val) * 5 + h.val) * 5 + h'.val) / 409600 % 16 = c.val; omega)
    | ⟨2, _⟩ => exact Fin.ext (by show ((((b.val * 16 + c.val) * 16384 + n.val) * 5 + h.val) * 5 + h'.val) % 409600 = n.val * 25 + h.val * 5 + h'.val; omega)
  have e94 : idx_main_v94 (ix3 b (flatPos n h h') ⟨0, Nat.one_pos⟩) = ix2 b (flatPos n h h') := by
    funext a; match a with | ⟨0, _⟩ => rfl | ⟨1, _⟩ => rfl
  have e88 : idx_main_v88 (ix3 b c (pix (ixN b n h) (iyN b n h'))) = ix4 b c (ixN b n h) (iyN b n h') := by
    funext a; match a with
    | ⟨0, _⟩ => exact Fin.ext (by show ((b.val * 16 + c.val) * 262144 + ((ixN b n h).val * 512 + (iyN b n h').val)) / 4194304 = b.val; omega)
    | ⟨1, _⟩ => exact Fin.ext (by show ((b.val * 16 + c.val) * 262144 + ((ixN b n h).val * 512 + (iyN b n h').val)) / 262144 % 16 = c.val; omega)
    | ⟨2, _⟩ => exact Fin.ext (by show ((b.val * 16 + c.val) * 262144 + ((ixN b n h).val * 512 + (iyN b n h').val)) / 512 % 512 = (ixN b n h).val; omega)
    | ⟨3, _⟩ => exact Fin.ext (by show ((b.val * 16 + c.val) * 262144 + ((ixN b n h).val * 512 + (iyN b n h').val)) % 512 = (iyN b n h').val; omega)
  rw [val_main_v96_apply, e,
    v95_at x0 x1 x4 b c (flatPos n h h') (pix (ixN b n h) (iyN b n h'))
      (by rw [val_main_v94_apply, e94, v93_at x1 x4 ixN iyN hix hiy]),
    val_main_v88_apply, e88]

end Gathered

section Result
variable (x0 : (⟨S8x16x512x512, .f32⟩ : BufTy).Contents (Elt Ideal)) (x1 : (⟨S8x16384x2, .f32⟩ : BufTy).Contents (Elt Ideal)) (x2 : (⟨S_, .f32⟩ : BufTy).Contents (Elt Ideal)) (x3 : (⟨S90, .f32⟩ : BufTy).Contents (Elt Ideal)) (x4 : (⟨S5, .f32⟩ : BufTy).Contents (Elt Ideal))
  (ixN iyN : Fin 8 → Fin 16384 → Fin 5 → Fin 512)
  (hix : ∀ b n h, val_main_v71 (F := Ideal) x1 x4 (ix3 b n h) = BitVec.ofNat 32 (ixN b n h).val)
  (hiy : ∀ b n h, val_main_v79 (F := Ideal) x1 x4 (ix3 b n h) = BitVec.ofNat 32 (iyN b n h).val)
include hix hiy

/-- The reference's result at `(b, c, n)`, with the window positions written by `hi` and `lo`. -/
theorem ref_at_window (b : Fin 8) (c : Fin 16) (n : Fin 16384) :
    val_main_v101 (F := Ideal) x0 x1 x2 x3 x4 (ix3 b c n)
      = ∑ k : Fin 25, x0 (ix4 b c (ixN b n (hi k)) (iyN b n (lo k)))
          * Ideal.div (val_main_v37 (F := Ideal) x1 x2 x3 (ix3 b n (hi k)) * val_main_v53 (F := Ideal) x1 x2 x3 (ix3 b n (lo k)))
              (∑ k' : Fin 25, val_main_v37 (F := Ideal) x1 x2 x3 (ix3 b n (hi k')) * val_main_v53 (F := Ideal) x1 x2 x3 (ix3 b n (lo k'))) := by
  rw [val_main_v101_apply, val_main_cst_18_apply, Ideal.ofBits_def, Ideal.ofBits_zero_f32, zero_add]
  refine Finset.sum_congr rfl fun k _ => ?_
  have e : idx_main_v100 (idx_main_v101 (ix3 b c n) k) = ix5 b c n (hi k) (lo k) := by
    funext a; match a with
    | ⟨0, _⟩ => exact Fin.ext (by show (((b.val * 16 + c.val) * 16384 + n.val) * 25 + k.val) / 6553600 = b.val; omega)
    | ⟨1, _⟩ => exact Fin.ext (by show (((b.val * 16 + c.val) * 16384 + n.val) * 25 + k.val) / 409600 % 16 = c.val; omega)
    | ⟨2, _⟩ => exact Fin.ext (by show (((b.val * 16 + c.val) * 16384 + n.val) * 25 + k.val) / 25 % 16384 = n.val; omega)
    | ⟨3, _⟩ => exact Fin.ext (by show (((b.val * 16 + c.val) * 16384 + n.val) * 25 + k.val) / 5 % 5 = k.val / 5; omega)
    | ⟨4, _⟩ => exact Fin.ext (by show (((b.val * 16 + c.val) * 16384 + n.val) * 25 + k.val) % 5 = k.val % 5; omega)
  have e' : idx_main_v97 (idx_main_v98 (ix5 b c n (hi k) (lo k))) = ix4 b n (hi k) (lo k) := by
    funext a; match a with | ⟨0, _⟩ => rfl | ⟨1, _⟩ => rfl | ⟨2, _⟩ => rfl | ⟨3, _⟩ => rfl
  rw [val_main_v100_apply, e, val_main_v99_apply, Ideal.mulf_def, v96_at x0 x1 x4 ixN iyN hix hiy,
    val_main_v98_apply, val_main_v97_apply, e', v63_at]

end Result

/-- THE REFERENCE AT ONE OUTPUT ENTRY. When every row and column index is the word of a number below 512, the result at
    `(b, c, n)` is the sum over the 25 entries `(h, h')` of the 5 by 5 window of point `n` of the image at
    `(b, c, row index h, column index h')` times the normalised weight: the product of the row weight at `h` and the
    column weight at `h'`, divided by the sum of the 25 such products. -/
theorem ref_at (x0 : (⟨S8x16x512x512, .f32⟩ : BufTy).Contents (Elt Ideal)) (x1 : (⟨S8x16384x2, .f32⟩ : BufTy).Contents (Elt Ideal)) (x2 : (⟨S_, .f32⟩ : BufTy).Contents (Elt Ideal)) (x3 : (⟨S90, .f32⟩ : BufTy).Contents (Elt Ideal)) (x4 : (⟨S5, .f32⟩ : BufTy).Contents (Elt Ideal))
    (ixN iyN : Fin 8 → Fin 16384 → Fin 5 → Fin 512)
    (hix : ∀ b n h, val_main_v71 (F := Ideal) x1 x4 (ix3 b n h) = BitVec.ofNat 32 (ixN b n h).val)
    (hiy : ∀ b n h, val_main_v79 (F := Ideal) x1 x4 (ix3 b n h) = BitVec.ofNat 32 (iyN b n h).val)
    (b : Fin 8) (c : Fin 16) (n : Fin 16384) :
    val_main_v101 (F := Ideal) x0 x1 x2 x3 x4 (ix3 b c n)
      = ∑ k : Fin 25, x0 (ix4 b c (ixN b n ⟨k.val / 5, by omega⟩) (iyN b n ⟨k.val % 5, by omega⟩))
          * Ideal.div (val_main_v37 (F := Ideal) x1 x2 x3 (ix3 b n ⟨k.val / 5, by omega⟩) * val_main_v53 (F := Ideal) x1 x2 x3 (ix3 b n ⟨k.val % 5, by omega⟩))
              (∑ k' : Fin 25, val_main_v37 (F := Ideal) x1 x2 x3 (ix3 b n ⟨k'.val / 5, by omega⟩) * val_main_v53 (F := Ideal) x1 x2 x3 (ix3 b n ⟨k'.val % 5, by omega⟩)) :=
  ref_at_window x0 x1 x2 x3 x4 ixN iyN hix hiy b c n

end Cert.RefAt

end
-- ==== Proof.PrefixFacts.lean ====
import proofs.«166878_j37890201485784_2_alg».proof.Proof.Gen.ReferenceIdeal.Read
import Idealize.ShloMosaic.Lib.ValueIdx
import Idealize.ShloMosaic.PureOps.Ideal.Laws

noncomputable section

namespace Cert.PrefixFacts

open Cert.ReferenceIdeal Cert.ReferenceIdeal.Read Idealize.ShloMosaic Idealize.ShloMosaic.ValueIdx

/-! ### Facts about plain extended reals

Nothing here mentions the program: clamping, truncation to an integer word, one Gaussian sample
`exp (h * ((z - p) / s)^2) / (sqrt (s * s) * c)`, and sums of positive reals or of `⊥`. -/
section Pure

/-- Clamping ANY extended real (an infinity too) between two reals `lo ≤ hi` gives a real in `[lo, hi]`:
    `⊥` goes to `lo`, `⊤` to `hi`, a real `x` to `min hi (max lo x)`. -/
theorem clip_real {lo hi : ℝ} (h : lo ≤ hi) (z : EReal) :
    ∃ r : ℝ, lo ≤ r ∧ r ≤ hi ∧ min (hi : EReal) (max (lo : EReal) z) = (r : EReal) := by
  induction z using EReal.rec with
  | bot =>
    refine ⟨lo, le_rfl, h, ?_⟩
    rw [max_eq_left bot_le, min_eq_right (EReal.coe_le_coe_iff.2 h)]
  | coe x =>
    refine ⟨min hi (max lo x), le_min h (le_max_left _ _), min_le_left _ _, ?_⟩
    rw [← EReal.coe_strictMono.monotone.map_max, ← EReal.coe_strictMono.monotone.map_min]
  | top =>
    refine ⟨hi, h, le_rfl, ?_⟩
    rw [max_eq_right le_top, min_eq_left le_top]

/-- A real in `[0, 511]` truncates to its floor, an integer in `[0, 511]`, far inside the signed 32-bit range,
    so the clamp is the identity and the word is that natural number. -/
theorem fptosi_of_mem {r : ℝ} (h0 : 0 ≤ r) (h1 : r ≤ 511) :
    ∃ k : Fin 512, Ideal.fptosi 32 (r : EReal) = BitVec.ofNat 32 k.val := by
  have hf0 : 0 ≤ ⌊r⌋ := Int.floor_nonneg.2 h0
  have hf1 : ⌊r⌋ ≤ 511 := by
    have : ⌊r⌋ ≤ ⌊(511 : ℝ)⌋ := Int.floor_le_floor h1
    simpa using this
  refine ⟨⟨⌊r⌋.toNat, by omega⟩, ?_⟩
  rw [Ideal.fptosi, Ideal.toIntClamped_coe, if_pos h0]
  have : max (-((2 ^ (32 - 1) : ℕ) : ℤ)) (min (((2 ^ (32 - 1) : ℕ) : ℤ) - 1) ⌊r⌋) = ((⌊r⌋.toNat : ℕ) : ℤ) := by
    rw [Int.toNat_of_nonneg hf0]; norm_num; omega
  rw [this, BitVec.ofInt_natCast]

/-- One Gaussian sample: `exp (h * ((z - p) / s)^2) / (sqrt (s * s) * c)`, in the extended reals' operations. -/
def sample (c h z p s : EReal) : EReal :=
  Ideal.div (Ideal.exp (h * (Ideal.div (z - p) s * Ideal.div (z - p) s))) (Ideal.sqrt (s * s) * c)

/-- With every argument real, `0 < c` and `s ≠ 0`: the quotient `(z - p) / s` is real, so is `h` times its square,
    its exponential is a positive real, the divisor `sqrt (s * s) * c` is a positive real, and so is the sample. -/
theorem sample_pos {c h z p s : ℝ} (hc : 0 < c) (hs : s ≠ 0) :
    ∃ r : ℝ, 0 < r ∧ sample (c : EReal) (h : EReal) (z : EReal) (p : EReal) (s : EReal) = (r : EReal) := by
  have hss : 0 < s * s := mul_self_pos.2 hs
  have hd : 0 < Real.sqrt (s * s) * c := mul_pos (Real.sqrt_pos.2 hss) hc
  refine ⟨Real.exp (h * ((z - p) * (1 / s) * ((z - p) * (1 / s)))) * (1 / (Real.sqrt (s * s) * c)),
    mul_pos (Real.exp_pos _) (one_div_pos.2 hd), ?_⟩
  have e1 : Ideal.div ((z : EReal) - (p : EReal)) (s : EReal) = (((z - p) * (1 / s) : ℝ) : EReal) := by
    rw [Ideal.div_coe hs, ← EReal.coe_sub, ← EReal.coe_mul]
  have e2 : Ideal.sqrt ((s : EReal) * (s : EReal)) * (c : EReal) = ((Real.sqrt (s * s) * c : ℝ) : EReal) := by
    rw [← EReal.coe_mul, Ideal.sqrt_coe, if_neg (not_lt.2 hss.le), ← EReal.coe_mul]
  unfold sample
  rw [e1, e2, ← EReal.coe_mul, ← EReal.coe_mul, Ideal.exp_coe, Ideal.div_coe hd.ne', ← EReal.coe_mul]

/-- A quotient by zero is an infinity: `⊤` for a positive numerator, `⊥` otherwise. -/
theorem div_zero_cases (x : EReal) : Ideal.div x 0 = ⊤ ∨ Ideal.div x 0 = ⊥ := by
  unfold Ideal.div
  rw [if_pos rfl]
  by_cases hx : 0 < x
  · left; rw [if_pos hx]
  · right; rw [if_neg hx]

/-- At `s = 0` with `h < 0`: `(z - p) / 0` is `⊤` or `⊥`, its square is `⊤`, `h * ⊤ = ⊥`, `exp ⊥ = 0`;
    the divisor is `sqrt 0 * c = 0`, and `0 / 0` is `⊥`. No assumption on `z` or `p`. -/
theorem sample_zero {c h : ℝ} (hh : h < 0) (z p : EReal) :
    sample (c : EReal) (h : EReal) z p 0 = ⊥ := by
  have hsq : Ideal.div (z - p) 0 * Ideal.div (z - p) 0 = ⊤ := by
    rcases div_zero_cases (z - p) with e | e <;> rw [e]
    · exact EReal.top_mul_top
    · exact EReal.bot_mul_bot
  have hsqrt : Ideal.sqrt ((0 : EReal) * 0) = 0 := by
    rw [mul_zero, ← EReal.coe_zero, Ideal.sqrt_coe, if_neg (lt_irrefl _), Real.sqrt_zero]
  unfold sample
  rw [hsq, EReal.coe_mul_top_of_neg hh, Ideal.exp_bot, hsqrt, zero_mul, Ideal.div, if_pos rfl, if_neg (lt_irrefl _)]

/-- Zero plus a nonempty finite sum of positive reals is a positive real. -/
theorem sum_pos_real {ι : Type*} (s : Finset ι) (hs : s.Nonempty) (f : ι → EReal)
    (hf : ∀ k ∈ s, ∃ r : ℝ, 0 < r ∧ f k = (r : EReal)) : ∃ r : ℝ, 0 < r ∧ 0 + ∑ k ∈ s, f k = (r : EReal) := by
  rw [zero_add]
  refine Finset.sum_induction_nonempty f (fun x => ∃ r : ℝ, 0 < r ∧ x = (r : EReal)) ?_ hs hf
  rintro a b ⟨ra, ha, rfl⟩ ⟨rb, hb, rfl⟩
  exact ⟨ra + rb, add_pos ha hb, (EReal.coe_add ra rb).symm⟩

/-- Zero plus a nonempty finite sum of `⊥`'s is `⊥`. -/
theorem sum_bot {ι : Type*} (s : Finset ι) (hs : s.Nonempty) (f : ι → EReal) (hf : ∀ k ∈ s, f k = ⊥) :
    0 + ∑ k ∈ s, f k = ⊥ := by
  rw [zero_add]
  refine Finset.sum_induction_nonempty f (fun x => x = ⊥) ?_ hs hf
  rintro a b rfl rfl
  exact EReal.bot_add _

/-- The pattern `0xBF000000` denotes `-1/2`. -/
theorem ofBits_negHalf : Ideal.ofBits .f32 0xBF000000#32 = ((-(1 / 2) : ℝ) : EReal) := by
  simp [Ideal.ofBits, Ideal.ieee, -EReal.coe_mul]; norm_num

/-- The pattern `0x40206C99` (sign `+`, exponent `128`, significand `2^23 + 2124953`) denotes the positive real
    `10513561 * 2^(-22)`, the single-precision `sqrt (2π)`. -/
theorem ofBits_c : ∃ c : ℝ, 0 < c ∧ Ideal.ofBits .f32 0x40206C99#32 = (c : EReal) := by
  refine ⟨10513561 * (2 : ℝ) ^ (-22 : ℤ), by positivity, ?_⟩
  simp [Ideal.ofBits, Ideal.ieee, -EReal.coe_mul]

/-- The pattern `0x43FF8000` denotes `511`. -/
theorem ofBits_511 : Ideal.ofBits .f32 0x43FF8000#32 = ((511 : ℝ) : EReal) := by
  simp [Ideal.ofBits, Ideal.ieee, -EReal.coe_mul]; norm_num

end Pure

/-! ### The same facts in the shapes the program presents them

The integer literals `0`, `511`, `512` arrive as 32-bit words read signed; an array entry arrives as zero plus a sum
of 18 entries of a sample array. -/
section Abstract

/-- The words `511`, `512`, `0` read signed are those integers. -/
theorem toInt_511 : (((511#32 : BitVec 32).toInt : ℤ) : ℝ) = 511 := by
  have : (511#32 : BitVec 32).toInt = 511 := by decide
  rw [this]; norm_num

theorem toInt_512 : (((512#32 : BitVec 32).toInt : ℤ) : ℝ) = 512 := by
  have : (512#32 : BitVec 32).toInt = 512 := by decide
  rw [this]; norm_num

theorem toInt_0 : (((0#32 : BitVec 32).toInt : ℤ) : ℝ) = 0 := by
  have : (0#32 : BitVec 32).toInt = 0 := by decide
  rw [this]; norm_num

/-- `clip (z, 0, 511)` converted to a 32-bit integer is a word `k` with `k ≤ 511`, for EVERY extended real `z`. -/
theorem clip_fptosi (z : EReal) :
    ∃ k : Fin 512, Ideal.fptosi 32 (min ((((511#32 : BitVec 32).toInt : ℤ) : ℝ) : EReal)
      (max ((((0#32 : BitVec 32).toInt : ℤ) : ℝ) : EReal) z)) = BitVec.ofNat 32 k.val := by
  obtain ⟨r, h0, h1, e⟩ := clip_real (lo := 0) (hi := 511) (by norm_num) z
  rw [toInt_511, toInt_0, e]
  exact fptosi_of_mem h0 h1

/-- `clip (z, 0, 512)` is a real, for every extended real `z`. -/
theorem clip512_real (z : EReal) :
    ∃ r : ℝ, min ((((512#32 : BitVec 32).toInt : ℤ) : ℝ) : EReal) (max (Ideal.ofBits .f32 0x00000000#32) z) = (r : EReal) := by
  obtain ⟨r, -, -, e⟩ := clip_real (lo := 0) (hi := 512) (by norm_num) z
  rw [toInt_512, Ideal.ofBits_zero_f32, ← EReal.coe_zero, e]
  exact ⟨r, rfl⟩

/-- If every entry of `v` is zero plus a sum of 18 entries of `w`, every entry of `w` is a sample at real `z`, `p` with
    `0 < c` and a real `s ≠ 0`, then every entry of `v` is a positive real. -/
theorem pos_of_sample {ι κ : Type*} (v : ι → EReal) (w z p : κ → EReal) {c h s : ℝ} (hc : 0 < c) (hs : s ≠ 0)
    (hv : ∀ i, ∃ f : Fin 18 → κ, v i = 0 + ∑ k : Fin 18, w (f k))
    (hw : ∀ j, w j = sample (c : EReal) (h : EReal) (z j) (p j) (s : EReal))
    (hz : ∀ j, ∃ r : ℝ, z j = (r : EReal)) (hp : ∀ j, ∃ r : ℝ, p j = (r : EReal)) (i : ι) :
    ∃ r : ℝ, 0 < r ∧ v i = (r : EReal) := by
  obtain ⟨f, hf⟩ := hv i
  rw [hf]
  refine sum_pos_real Finset.univ Finset.univ_nonempty (fun k => w (f k)) fun k _ => ?_
  obtain ⟨zr, hzr⟩ := hz (f k)
  obtain ⟨pr, hpr⟩ := hp (f k)
  rw [hw, hzr, hpr]
  exact sample_pos hc hs

/-- The same at `s = 0` with `h < 0`: every entry of `v` is `⊥`. -/
theorem bot_of_sample {ι κ : Type*} (v : ι → EReal) (w z p : κ → EReal) {c h : ℝ} (hh : h < 0)
    (hv : ∀ i, ∃ f : Fin 18 → κ, v i = 0 + ∑ k : Fin 18, w (f k))
    (hw : ∀ j, w j = sample (c : EReal) (h : EReal) (z j) (p j) 0) (i : ι) :
    v i = ⊥ := by
  obtain ⟨f, hf⟩ := hv i
  rw [hf]
  refine sum_bot Finset.univ Finset.univ_nonempty (fun k => w (f k)) fun k _ => ?_
  rw [hw]
  exact sample_zero hh _ _

end Abstract

/-! ### The program's arrays

The generated reading of the reference gives each operation's element from its operands' elements; chaining
those readings outermost first identifies each entry with the plain expressions above. The x-axis and the y-axis are
built by parallel operations, so each step is stated twice. -/
section Program

/-- The one index of the rank-zero shape. -/
def s0 : S_.Idx := fun a => a.elim0

/-- The x index array: `fptosi (min 511 (max 0 (round …)))` is a word `k ≤ 511`, with no hypothesis at all. -/
theorem ix_fin (x1 : (⟨S8x16384x2, .f32⟩ : BufTy).Contents (Elt Ideal)) (x4 : (⟨S5, .f32⟩ : BufTy).Contents (Elt Ideal))
    (i : S8x16384x5.Idx) : ∃ k : Fin 512, val_main_v71 (F := Ideal) x1 x4 i = BitVec.ofNat 32 k.val := by
  rw [val_main_v71_apply, val_main_v70_apply, val_main_call5_v4_apply, val_main_call5_v3_apply, val_main_c_12_apply,
    val_main_call5_v2_apply, val_main_call5_v1_apply, val_main_call5_v0_apply, val_main_c_11_apply]
  exact clip_fptosi _

/-- The y index array, likewise. -/
theorem iy_fin (x1 : (⟨S8x16384x2, .f32⟩ : BufTy).Contents (Elt Ideal)) (x4 : (⟨S5, .f32⟩ : BufTy).Contents (Elt Ideal))
    (i : S8x16384x5.Idx) : ∃ k : Fin 512, val_main_v79 (F := Ideal) x1 x4 i = BitVec.ofNat 32 k.val := by
  rw [val_main_v79_apply, val_main_v78_apply, val_main_call7_v4_apply, val_main_call7_v3_apply, val_main_c_14_apply,
    val_main_call7_v2_apply, val_main_call7_v1_apply, val_main_call7_v0_apply, val_main_c_13_apply]
  exact clip_fptosi _

variable (x1 : (⟨S8x16384x2, .f32⟩ : BufTy).Contents (Elt Ideal)) (x2 : (⟨S_, .f32⟩ : BufTy).Contents (Elt Ideal))
  (x3 : (⟨S90, .f32⟩ : BufTy).Contents (Elt Ideal))

/-- The continuous positions `coords * 511` are real when the coordinates are. -/
theorem v3_real (hx1 : ∀ j, ∃ r : ℝ, x1 j = (r : EReal)) (j : S8x16384.Idx) :
    ∃ r : ℝ, val_main_v3 (F := Ideal) x1 j = (r : EReal) := by
  rw [val_main_v3_apply, val_main_v1_apply, val_main_v0_apply, val_main_v2_apply, val_main_cst_apply]
  obtain ⟨r, hr⟩ := hx1 (idx_main_v0 (idx_main_v1 j))
  rw [hr]
  exact ⟨r * 511, by rw [Ideal.mulf_def, Ideal.ofBits_def, ofBits_511, EReal.coe_mul]⟩

theorem v7_real (hx1 : ∀ j, ∃ r : ℝ, x1 j = (r : EReal)) (j : S8x16384.Idx) :
    ∃ r : ℝ, val_main_v7 (F := Ideal) x1 j = (r : EReal) := by
  rw [val_main_v7_apply, val_main_v5_apply, val_main_v4_apply, val_main_v6_apply, val_main_cst_0_apply]
  obtain ⟨r, hr⟩ := hx1 (idx_main_v4 (idx_main_v5 j))
  rw [hr]
  exact ⟨r * 511, by rw [Ideal.mulf_def, Ideal.ofBits_def, ofBits_511, EReal.coe_mul]⟩

/-- Their broadcasts along the sample axis read those same entries. -/
theorem v23_real (hx1 : ∀ j, ∃ r : ℝ, x1 j = (r : EReal)) (j : S8x16384x90.Idx) :
    ∃ r : ℝ, val_main_v23 (F := Ideal) x1 j = (r : EReal) := by
  rw [val_main_v23_apply, val_main_v22_apply]
  exact v3_real x1 hx1 _

theorem v39_real (hx1 : ∀ j, ∃ r : ℝ, x1 j = (r : EReal)) (j : S8x16384x90.Idx) :
    ∃ r : ℝ, val_main_v39 (F := Ideal) x1 j = (r : EReal) := by
  rw [val_main_v39_apply, val_main_v38_apply]
  exact v7_real x1 hx1 _

/-- The clipped sample positions `clip (rp - off, 0, 512)` are real whatever `rp - off` is. -/
theorem v15_real (j : S8x16384x90.Idx) : ∃ r : ℝ, val_main_v15 (F := Ideal) x1 x3 j = (r : EReal) := by
  rw [val_main_v15_apply, val_main_call2_v4_apply, val_main_call2_v3_apply, val_main_c_apply, val_main_call2_v2_apply,
    val_main_call2_v1_apply, val_main_call2_v0_apply, val_main_cst_1_apply]
  exact clip512_real _

theorem v21_real (j : S8x16384x90.Idx) : ∃ r : ℝ, val_main_v21 (F := Ideal) x1 x3 j = (r : EReal) := by
  rw [val_main_v21_apply, val_main_call3_v4_apply, val_main_call3_v3_apply, val_main_c_3_apply, val_main_call3_v2_apply,
    val_main_call3_v1_apply, val_main_call3_v0_apply, val_main_cst_2_apply]
  exact clip512_real _

/-- Each entry of the sample array is the Gaussian sample of the clipped position, the continuous position and the
    scalar `s`, with `h = -1/2`'s pattern and `c = sqrt (2π)`'s pattern. -/
theorem v35_eq (j : S8x16384x90.Idx) :
    val_main_v35 (F := Ideal) x1 x2 x3 j
      = sample (Ideal.ofBits .f32 0x40206C99#32) (Ideal.ofBits .f32 0xBF000000#32)
          (val_main_v15 (F := Ideal) x1 x3 j) (val_main_v23 (F := Ideal) x1 j) (x2 s0) := by
  rw [val_main_v35_apply, val_main_v30_apply, val_main_v29_apply, val_main_v28_apply, val_main_cst_4_apply,
    val_main_v27_apply, val_main_v26_apply, val_main_v24_apply, val_main_v25_apply, val_main_v34_apply,
    val_main_v33_apply, val_main_v32_apply, val_main_v31_apply, val_main_cst_5_apply]
  rfl

theorem v51_eq (j : S8x16384x90.Idx) :
    val_main_v51 (F := Ideal) x1 x2 x3 j
      = sample (Ideal.ofBits .f32 0x40206C99#32) (Ideal.ofBits .f32 0xBF000000#32)
          (val_main_v21 (F := Ideal) x1 x3 j) (val_main_v39 (F := Ideal) x1 j) (x2 s0) := by
  rw [val_main_v51_apply, val_main_v46_apply, val_main_v45_apply, val_main_v44_apply, val_main_cst_7_apply,
    val_main_v43_apply, val_main_v42_apply, val_main_v40_apply, val_main_v41_apply, val_main_v50_apply,
    val_main_v49_apply, val_main_v48_apply, val_main_v47_apply, val_main_cst_8_apply]
  rfl

/-- Each raw weight is zero plus the sum of 18 entries of the sample array. -/
theorem v37_sum (i : S8x16384x5.Idx) : ∃ f : Fin 18 → S8x16384x90.Idx,
    val_main_v37 (F := Ideal) x1 x2 x3 i = 0 + ∑ k : Fin 18, val_main_v35 (F := Ideal) x1 x2 x3 (f k) := by
  refine ⟨fun k => idx_main_v36 (idx_main_v37 i k), ?_⟩
  rw [val_main_v37_apply, val_main_cst_6_apply, Ideal.ofBits_def, Ideal.ofBits_zero_f32]
  exact congrArg (0 + ·) (Finset.sum_congr rfl fun k _ => val_main_v36_apply x1 x2 x3 _)

theorem v53_sum (i : S8x16384x5.Idx) : ∃ f : Fin 18 → S8x16384x90.Idx,
    val_main_v53 (F := Ideal) x1 x2 x3 i = 0 + ∑ k : Fin 18, val_main_v51 (F := Ideal) x1 x2 x3 (f k) := by
  refine ⟨fun k => idx_main_v52 (idx_main_v53 i k), ?_⟩
  rw [val_main_v53_apply, val_main_cst_9_apply, Ideal.ofBits_def, Ideal.ofBits_zero_f32]
  exact congrArg (0 + ·) (Finset.sum_congr rfl fun k _ => val_main_v52_apply x1 x2 x3 _)

/-- The raw weights of both axes: with real coordinates and a real scalar `s`, either `s ≠ 0` and every raw weight of
    both axes is a positive real, or `s = 0` and every raw weight of both axes is `⊥`. No hypothesis on the offsets. -/
theorem weights_cases (x1 : (⟨S8x16384x2, .f32⟩ : BufTy).Contents (Elt Ideal)) (x2 : (⟨S_, .f32⟩ : BufTy).Contents (Elt Ideal))
    (x3 : (⟨S90, .f32⟩ : BufTy).Contents (Elt Ideal))
    (hx1 : ∀ j, ∃ r : ℝ, x1 j = (r : EReal)) (hx2 : ∀ j, ∃ r : ℝ, x2 j = (r : EReal)) :
    ((∀ i, ∃ r : ℝ, 0 < r ∧ val_main_v37 (F := Ideal) x1 x2 x3 i = (r : EReal))
        ∧ (∀ i, ∃ r : ℝ, 0 < r ∧ val_main_v53 (F := Ideal) x1 x2 x3 i = (r : EReal)))
      ∨ ((∀ i, val_main_v37 (F := Ideal) x1 x2 x3 i = ⊥) ∧ (∀ i, val_main_v53 (F := Ideal) x1 x2 x3 i = ⊥)) := by
  obtain ⟨s, hs⟩ := hx2 s0
  obtain ⟨c, hc, hcE⟩ := ofBits_c
  by_cases h0 : s = 0
  · right
    have hs' : x2 s0 = 0 := by rw [hs, h0, EReal.coe_zero]
    refine ⟨fun i => ?_, fun i => ?_⟩
    · exact bot_of_sample (val_main_v37 (F := Ideal) x1 x2 x3) (val_main_v35 (F := Ideal) x1 x2 x3)
        (val_main_v15 (F := Ideal) x1 x3) (val_main_v23 (F := Ideal) x1) (c := c) (h := -(1 / 2)) (by norm_num)
        (v37_sum x1 x2 x3) (fun j => by rw [v35_eq, hcE, ofBits_negHalf, hs']) i
    · exact bot_of_sample (val_main_v53 (F := Ideal) x1 x2 x3) (val_main_v51 (F := Ideal) x1 x2 x3)
        (val_main_v21 (F := Ideal) x1 x3) (val_main_v39 (F := Ideal) x1) (c := c) (h := -(1 / 2)) (by norm_num)
        (v53_sum x1 x2 x3) (fun j => by rw [v51_eq, hcE, ofBits_negHalf, hs']) i
  · left
    refine ⟨fun i => ?_, fun i => ?_⟩
    · exact pos_of_sample (val_main_v37 (F := Ideal) x1 x2 x3) (val_main_v35 (F := Ideal) x1 x2 x3)
        (val_main_v15 (F := Ideal) x1 x3) (val_main_v23 (F := Ideal) x1) (c := c) (h := -(1 / 2)) (s := s) hc h0
        (v37_sum x1 x2 x3) (fun j => by rw [v35_eq, hcE, ofBits_negHalf, hs]) (v15_real x1 x3) (v23_real x1 hx1) i
    · exact pos_of_sample (val_main_v53 (F := Ideal) x1 x2 x3) (val_main_v51 (F := Ideal) x1 x2 x3)
        (val_main_v21 (F := Ideal) x1 x3) (val_main_v39 (F := Ideal) x1) (c := c) (h := -(1 / 2)) (s := s) hc h0
        (v53_sum x1 x2 x3) (fun j => by rw [v51_eq, hcE, ofBits_negHalf, hs]) (v21_real x1 x3) (v39_real x1 hx1) i

end Program

end Cert.PrefixFacts

end
-- ==== Proof.LibSeparableWindow.lean ====
import Mathlib
import Idealize.ShloMosaic.PureOps.Ideal

noncomputable section

open Idealize.ShloMosaic

namespace Cert.LibSeparableWindow

/-- The row index of position `k` of a 5 by 5 window read row by row. -/
def hi (k : Fin 25) : Fin 5 := ⟨k.val / 5, by omega⟩
/-- The column index of position `k` of a 5 by 5 window read row by row. -/
def lo (k : Fin 25) : Fin 5 := ⟨k.val % 5, by omega⟩

/-- The coercion of a finite sum of reals into the extended reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion into the extended reals of a real that is a given value or zero by cases is the
    same choice between the coerced value and zero. -/
theorem coe_ite_zero (c : Prop) [Decidable c] (r : ℝ) :
    ((if c then r else 0 : ℝ) : EReal) = if c then (r : EReal) else 0 := by
  split_ifs <;> rfl

/-- A sum over the 25 positions of a 5 by 5 window is the double sum over its rows and columns. -/
theorem sum_window {α : Type*} [AddCommMonoid α] (f : Fin 5 → Fin 5 → α) :
    ∑ k : Fin 25, f (hi k) (lo k) = ∑ h : Fin 5, ∑ h' : Fin 5, f h h' := by
  rw [← Fintype.sum_prod_type']
  exact Fintype.sum_equiv (finProdFinEquiv (m := 5) (n := 5)).symm _ _ (fun k => rfl)

/-- Contracting a vector against a one-hot-weighted selection vector picks out the weighted
    selected entries. -/
theorem sum_mul_onehot {N : ℕ} (g : Fin N → ℝ) (ix : Fin 5 → Fin N) (w : Fin 5 → ℝ) :
    (∑ i : Fin N, g i * (∑ h : Fin 5, if i = ix h then w h else 0))
      = ∑ h : Fin 5, g (ix h) * w h := by
  simp only [Finset.mul_sum, mul_ite, mul_zero]
  rw [Finset.sum_comm]
  refine Finset.sum_congr rfl (fun h _ => ?_)
  rw [Finset.sum_ite_eq' Finset.univ (ix h) (fun i => g i * w h)]
  simp

/-- Over the reals: contracting an image against two one-hot-weighted selection vectors is the
    sum over the 5 by 5 window of the selected entries times the products of the weights. -/
theorem window_real {N M : ℕ} (x : Fin N → Fin M → ℝ) (ix : Fin 5 → Fin N) (iy : Fin 5 → Fin M)
    (wa wb : Fin 5 → ℝ) :
    (∑ i : Fin N, (∑ j : Fin M, x i j * (∑ h : Fin 5, if j = iy h then wb h else 0))
        * (∑ h : Fin 5, if i = ix h then wa h else 0))
    = ∑ k : Fin 25, x (ix (hi k)) (iy (lo k)) * (wa (hi k) * wb (lo k)) := by
  rw [sum_window (fun h h' => x (ix h) (iy h') * (wa h * wb h'))]
  have h1 : ∀ i : Fin N, (∑ j : Fin M, x i j * (∑ h : Fin 5, if j = iy h then wb h else 0))
      = ∑ h : Fin 5, x i (iy h) * wb h := fun i => sum_mul_onehot (x i) iy wb
  simp only [h1]
  rw [sum_mul_onehot (fun i => ∑ h : Fin 5, x i (iy h) * wb h) ix wa]
  refine Finset.sum_congr rfl (fun h _ => ?_)
  rw [Finset.sum_mul]
  refine Finset.sum_congr rfl (fun h' _ => ?_)
  ring

/-- The quotient of minus infinity by minus infinity is zero, the inverse of an infinity being zero. -/
theorem div_bot_bot : Ideal.div ⊥ ⊥ = 0 := by simp [Ideal.div]

/-- The quotient of plus infinity by plus infinity is zero, the inverse of an infinity being zero. -/
theorem div_top_top : Ideal.div ⊤ ⊤ = 0 := by simp [Ideal.div]

/-- Five copies of minus infinity add up to minus infinity. -/
theorem sum_five_bot : (∑ _h : Fin 5, (⊥ : EReal)) = ⊥ := by
  simp only [Fin.sum_univ_five, EReal.bot_add]

/-- Twenty-five copies of plus infinity add up to plus infinity. -/
theorem sum_window_top : (∑ _k : Fin 25, (⊤ : EReal)) = ⊤ := by
  rw [sum_window (fun _ _ => (⊤ : EReal))]
  simp only [Fin.sum_univ_five, EReal.top_add_top]

/-- The separable window identity when every weight is a positive real: both sides are real
    algebra, the normalising totals being positive reals. -/
theorem separable_window_pos {N M : ℕ} (x : Fin N → Fin M → ℝ) (ix : Fin 5 → Fin N)
    (iy : Fin 5 → Fin M) (ra rb : Fin 5 → ℝ) (ha : ∀ h, 0 < ra h) (hb : ∀ h, 0 < rb h) :
    (∑ i : Fin N, (∑ j : Fin M, (x i j : EReal) * (∑ h : Fin 5,
          if j = iy h then Ideal.div (rb h : EReal) (∑ h', (rb h' : EReal)) else 0))
        * (∑ h : Fin 5, if i = ix h then Ideal.div (ra h : EReal) (∑ h', (ra h' : EReal)) else 0))
    = ∑ k : Fin 25, (x (ix (hi k)) (iy (lo k)) : EReal)
        * Ideal.div ((ra (hi k) : EReal) * (rb (lo k) : EReal))
            (∑ k' : Fin 25, (ra (hi k') : EReal) * (rb (lo k') : EReal)) := by
  have hsa : 0 < ∑ h, ra h := Finset.sum_pos (fun h _ => ha h) Finset.univ_nonempty
  have hsb : 0 < ∑ h, rb h := Finset.sum_pos (fun h _ => hb h) Finset.univ_nonempty
  have hta : (∑ h' : Fin 5, (ra h' : EReal)) = ((∑ h', ra h' : ℝ) : EReal) := (coe_sum _ _).symm
  have htb : (∑ h' : Fin 5, (rb h' : EReal)) = ((∑ h', rb h' : ℝ) : EReal) := (coe_sum _ _).symm
  have htot : (∑ k' : Fin 25, (ra (hi k') : EReal) * (rb (lo k') : EReal))
      = (((∑ h, ra h) * (∑ h, rb h) : ℝ) : EReal) := by
    rw [Finset.sum_mul_sum, ← sum_window (fun h h' => ra h * rb h'), coe_sum]
    simp only [EReal.coe_mul]
  have key := congrArg (fun r : ℝ => (r : EReal))
    (window_real x ix iy (fun h => ra h * (1 / ∑ h', ra h')) (fun h => rb h * (1 / ∑ h', rb h')))
  simp only [coe_sum, EReal.coe_mul, coe_ite_zero] at key
  simp only [hta, htb, htot, Ideal.div_coe hsa.ne', Ideal.div_coe hsb.ne',
    Ideal.div_coe (mul_pos hsa hsb).ne']
  refine key.trans ?_
  refine Finset.sum_congr rfl (fun k _ => ?_)
  congr 1
  simp only [← EReal.coe_mul]
  congr 1
  rw [one_div, one_div, one_div, mul_inv]
  ring

/-- The separable window identity when every weight is minus infinity: each normalised weight is
    then zero on both sides, so both sides vanish. -/
theorem separable_window_bot {N M : ℕ} (x : Fin N → Fin M → ℝ) (ix : Fin 5 → Fin N)
    (iy : Fin 5 → Fin M) (a b : Fin 5 → EReal) (ha : ∀ h, a h = ⊥) (hb : ∀ h, b h = ⊥) :
    (∑ i : Fin N, (∑ j : Fin M, (x i j : EReal) * (∑ h : Fin 5,
          if j = iy h then Ideal.div (b h) (∑ h', b h') else 0))
        * (∑ h : Fin 5, if i = ix h then Ideal.div (a h) (∑ h', a h') else 0))
    = ∑ k : Fin 25, (x (ix (hi k)) (iy (lo k)) : EReal)
        * Ideal.div (a (hi k) * b (lo k)) (∑ k' : Fin 25, a (hi k') * b (lo k')) := by
  simp only [ha, hb, sum_five_bot, div_bot_bot, EReal.bot_mul_bot, sum_window_top, div_top_top,
    ite_self, Finset.sum_const_zero, mul_zero, zero_mul]

/-- A 5 by 5 window of an image, picked at the rows `ix h` and the columns `iy h'` and weighted by
    the outer product `a h * b h'` normalised by its total, equals the image contracted against the
    two one-hot-weighted selection vectors built from the separately normalised `a` and `b`; the
    weights are all positive reals, or all minus infinity (then both sides are zero). -/
theorem separable_window {N M : ℕ} (x : Fin N → Fin M → ℝ) (ix : Fin 5 → Fin N)
    (iy : Fin 5 → Fin M) (a b : Fin 5 → EReal)
    (hab : ((∀ h, ∃ r : ℝ, 0 < r ∧ a h = (r : EReal)) ∧ (∀ h, ∃ r : ℝ, 0 < r ∧ b h = (r : EReal)))
      ∨ ((∀ h, a h = ⊥) ∧ (∀ h, b h = ⊥))) :
    (∑ i : Fin N, (∑ j : Fin M, (x i j : EReal) * (∑ h : Fin 5,
          if j = iy h then Ideal.div (b h) (∑ h', b h') else 0))
        * (∑ h : Fin 5, if i = ix h then Ideal.div (a h) (∑ h', a h') else 0))
    = ∑ k : Fin 25, (x (ix (hi k)) (iy (lo k)) : EReal)
        * Ideal.div (a (hi k) * b (lo k)) (∑ k' : Fin 25, a (hi k') * b (lo k')) := by
  rcases hab with ⟨ha, hb⟩ | ⟨ha, hb⟩
  · choose ra hra_pos hra using ha
    choose rb hrb_pos hrb using hb
    obtain rfl : a = fun h => (ra h : EReal) := funext hra
    obtain rfl : b = fun h => (rb h : EReal) := funext hrb
    exact separable_window_pos x ix iy ra rb hra_pos hrb_pos
  · exact separable_window_bot x ix iy a b ha hb

end Cert.LibSeparableWindow
-- ==== Proof.Bridge.lean ====
/-
  The two programs compute one function of the arguments.

  Kernel: per batch row b, channel c and query n, the image contracted against two dense one-hot-weighted selection vectors, whose
  weights are the raw row / column weights each normalised by its own sum. Reference: the 5x5 window of the image at the rows and
  columns the index arrays name, weighted by the outer product of the raw weights normalised by its total. Where the scale
  parameter is nonzero all weights are positive reals and the two agree by real algebra (the outer product's total is the product of
  the two sums); where it is zero every raw weight is the junk value ⊥, both normalisations give 0 and both results are 0.
-/
import proofs.«166878_j37890201485784_2_alg».proof.Proof.KernelValue
import proofs.«166878_j37890201485784_2_alg».proof.Proof.KernelHost
import proofs.«166878_j37890201485784_2_alg».proof.Proof.RefAt
import proofs.«166878_j37890201485784_2_alg».proof.Proof.PrefixFacts
import proofs.«166878_j37890201485784_2_alg».proof.Proof.LibSeparableWindow

noncomputable section

namespace Cert.Bridge

open Idealize.ShloMosaic Idealize.ShloMosaic.ValueIdx
open Cert.KernelBody Cert.KernelValue Cert.ReferenceIdeal.Read Cert.LibSeparableWindow

/-- Against a word that is a row number below 512, the one-hot term is the weight at that row and zero elsewhere. -/
theorem sel_ofNat (j k : ℕ) (hj : j < 512) (hk : k < 512) (w : EReal) :
    sel j (BitVec.ofNat 32 k) w = if j = k then w else 0 := by
  unfold sel
  by_cases h : j = k
  · subst h
    rw [if_pos rfl]
    show Scalar.select (BitVec.ofBool (BitVec.ofNat 32 j == BitVec.ofNat 32 j)) w 0 = w
    rw [beq_self_eq_true]
    exact select_one w 0
  · rw [if_neg h]
    have hne : (BitVec.ofNat 32 j == BitVec.ofNat 32 k) = false := by
      rw [beq_eq_false_iff_ne]
      intro e
      have := congrArg BitVec.toNat e
      rw [BitVec.toNat_ofNat, BitVec.toNat_ofNat, Nat.mod_eq_of_lt (by omega), Nat.mod_eq_of_lt (by omega)] at this
      exact h this
    show Scalar.select (BitVec.ofBool (BitVec.ofNat 32 j == BitVec.ofNat 32 k)) w 0 = 0
    rw [hne]
    exact select_zero w 0

/-- Five one-hot terms added in order from zero are the sum over the five rows. -/
theorem dense_sum (iv : Fin 5 → Fin 512) (w : Fin 5 → EReal) (j : Fin 512) :
    ((((0 + (if j.val = (iv 0).val then w 0 else 0)) + (if j.val = (iv 1).val then w 1 else 0)) + (if j.val = (iv 2).val then w 2 else 0))
        + (if j.val = (iv 3).val then w 3 else 0)) + (if j.val = (iv 4).val then w 4 else 0)
      = ∑ h : Fin 5, if j = iv h then w h else 0 := by
  rw [Fin.sum_univ_five, zero_add]
  simp only [Fin.ext_iff]

variable (x0 : (⟨Cert.ReferenceIdeal.S8x16x512x512, .f32⟩ : BufTy).Contents (Elt Ideal))
  (x1 : (⟨Cert.ReferenceIdeal.S8x16384x2, .f32⟩ : BufTy).Contents (Elt Ideal))
  (x2 : (⟨Cert.ReferenceIdeal.S_, .f32⟩ : BufTy).Contents (Elt Ideal))
  (x3 : (⟨Cert.ReferenceIdeal.S90, .f32⟩ : BufTy).Contents (Elt Ideal))
  (x4 : (⟨Cert.ReferenceIdeal.S5, .f32⟩ : BufTy).Contents (Elt Ideal))

/-- THE TWO RESULTS ARE ONE FUNCTION of real-valued image, coordinates and scale: the kernel's whole-array function of the transposed
    index arrays and the transposed, separately normalised weight arrays is the reference's result. -/
theorem core (hx0 : ∀ j, ∃ r : ℝ, x0 j = (r : EReal)) (hx1 : ∀ j, ∃ r : ℝ, x1 j = (r : EReal)) (hx2 : ∀ j, ∃ r : ℝ, x2 j = (r : EReal)) :
    GkA x0 (transpose Cert.KernelIdeal.S8x5x16384 [0, 2, 1] (val_main_v71 (F := Ideal) x1 x4) Cert.KernelIdeal.Facts₀.transposes_S8x16384x5_S8x5x16384_0_2_1) (transpose Cert.KernelIdeal.S8x5x16384 [0, 2, 1] (val_main_v79 (F := Ideal) x1 x4) Cert.KernelIdeal.Facts₀.transposes_S8x16384x5_S8x5x16384_0_2_1)
        (transpose Cert.KernelIdeal.S8x5x16384 [0, 2, 1] (Host.divf (F := Ideal) (val_main_v37 (F := Ideal) x1 x2 x3) (broadcastInDim Cert.KernelIdeal.S8x16384x5 ![0, 1, 2] Cert.KernelIdeal.Facts₀.bcast_S8x16384x1_S8x16384x5_0_1_2 (broadcastInDim Cert.KernelIdeal.S8x16384x1 ![0, 1] Cert.KernelIdeal.Facts₀.bcast_S8x16384_S8x16384x1_0_1 (Host.reduceAdd (F := Ideal) (val_main_v37 (F := Ideal) x1 x2 x3) (constant (F := Ideal) Cert.KernelIdeal.S_ .f32 0x00000000#32) Cert.KernelIdeal.Facts₀.reducesTo_S8x16384x5_S8x16384_d2 Cert.KernelIdeal.Facts₀.h_S_)))) Cert.KernelIdeal.Facts₀.transposes_S8x16384x5_S8x5x16384_0_2_1)
        (transpose Cert.KernelIdeal.S8x5x16384 [0, 2, 1] (Host.divf (F := Ideal) (val_main_v53 (F := Ideal) x1 x2 x3) (broadcastInDim Cert.KernelIdeal.S8x16384x5 ![0, 1, 2] Cert.KernelIdeal.Facts₀.bcast_S8x16384x1_S8x16384x5_0_1_2 (broadcastInDim Cert.KernelIdeal.S8x16384x1 ![0, 1] Cert.KernelIdeal.Facts₀.bcast_S8x16384_S8x16384x1_0_1 (Host.reduceAdd (F := Ideal) (val_main_v53 (F := Ideal) x1 x2 x3) (constant (F := Ideal) Cert.KernelIdeal.S_ .f32 0x00000000#32) Cert.KernelIdeal.Facts₀.reducesTo_S8x16384x5_S8x16384_d2 Cert.KernelIdeal.Facts₀.h_S_)))) Cert.KernelIdeal.Facts₀.transposes_S8x16384x5_S8x5x16384_0_2_1)
      = val_main_v101 (F := Ideal) x0 x1 x2 x3 x4 := by
  choose ixF hixF using Cert.PrefixFacts.ix_fin x1 x4
  choose iyF hiyF using Cert.PrefixFacts.iy_fin x1 x4
  choose xr hxr using hx0
  funext i
  obtain ⟨b, c, n, rfl⟩ : ∃ (b : Fin 8) (c : Fin 16) (n : Fin 16384), i = ix3 b c n := ⟨i 0, i 1, i 2, eq_ix3 i⟩
  rw [Cert.RefAt.ref_at_window x0 x1 x2 x3 x4 (fun b n h => ixF (ix3 b n h)) (fun b n h => iyF (ix3 b n h))
    (fun b n h => hixF (ix3 b n h)) (fun b n h => hiyF (ix3 b n h)) b c n]
  show Gk x0 _ _ _ _ b c n = _
  unfold Gk denseA
  have ty : ∀ h : Fin 5, (transpose Cert.KernelIdeal.S8x5x16384 [0, 2, 1] (val_main_v79 (F := Ideal) x1 x4) Cert.KernelIdeal.Facts₀.transposes_S8x16384x5_S8x5x16384_0_2_1) (ix3 b h n) = BitVec.ofNat 32 (iyF (ix3 b n h)).val :=
    fun h => (Cert.KernelHost.tr_at _ b h n).trans (hiyF _)
  have tx : ∀ h : Fin 5, (transpose Cert.KernelIdeal.S8x5x16384 [0, 2, 1] (val_main_v71 (F := Ideal) x1 x4) Cert.KernelIdeal.Facts₀.transposes_S8x16384x5_S8x5x16384_0_2_1) (ix3 b h n) = BitVec.ofNat 32 (ixF (ix3 b n h)).val :=
    fun h => (Cert.KernelHost.tr_at _ b h n).trans (hixF _)
  have wy : ∀ h : Fin 5, (transpose Cert.KernelIdeal.S8x5x16384 [0, 2, 1] (Host.divf (F := Ideal) (val_main_v53 (F := Ideal) x1 x2 x3) (broadcastInDim Cert.KernelIdeal.S8x16384x5 ![0, 1, 2] Cert.KernelIdeal.Facts₀.bcast_S8x16384x1_S8x16384x5_0_1_2 (broadcastInDim Cert.KernelIdeal.S8x16384x1 ![0, 1] Cert.KernelIdeal.Facts₀.bcast_S8x16384_S8x16384x1_0_1 (Host.reduceAdd (F := Ideal) (val_main_v53 (F := Ideal) x1 x2 x3) (constant (F := Ideal) Cert.KernelIdeal.S_ .f32 0x00000000#32) Cert.KernelIdeal.Facts₀.reducesTo_S8x16384x5_S8x16384_d2 Cert.KernelIdeal.Facts₀.h_S_)))) Cert.KernelIdeal.Facts₀.transposes_S8x16384x5_S8x5x16384_0_2_1) (ix3 b h n)
      = Ideal.div (val_main_v53 (F := Ideal) x1 x2 x3 (ix3 b n h)) (∑ h' : Fin 5, val_main_v53 (F := Ideal) x1 x2 x3 (ix3 b n h')) :=
    fun h => Cert.KernelHost.norm_at _ b h n
  have wx : ∀ h : Fin 5, (transpose Cert.KernelIdeal.S8x5x16384 [0, 2, 1] (Host.divf (F := Ideal) (val_main_v37 (F := Ideal) x1 x2 x3) (broadcastInDim Cert.KernelIdeal.S8x16384x5 ![0, 1, 2] Cert.KernelIdeal.Facts₀.bcast_S8x16384x1_S8x16384x5_0_1_2 (broadcastInDim Cert.KernelIdeal.S8x16384x1 ![0, 1] Cert.KernelIdeal.Facts₀.bcast_S8x16384_S8x16384x1_0_1 (Host.reduceAdd (F := Ideal) (val_main_v37 (F := Ideal) x1 x2 x3) (constant (F := Ideal) Cert.KernelIdeal.S_ .f32 0x00000000#32) Cert.KernelIdeal.Facts₀.reducesTo_S8x16384x5_S8x16384_d2 Cert.KernelIdeal.Facts₀.h_S_)))) Cert.KernelIdeal.Facts₀.transposes_S8x16384x5_S8x5x16384_0_2_1) (ix3 b h n)
      = Ideal.div (val_main_v37 (F := Ideal) x1 x2 x3 (ix3 b n h)) (∑ h' : Fin 5, val_main_v37 (F := Ideal) x1 x2 x3 (ix3 b n h')) :=
    fun h => Cert.KernelHost.norm_at _ b h n
  simp only [ty, tx, wy, wx, hxr]
  have hlt : ∀ q : Fin 512, q.val < 512 := fun q => q.isLt
  simp only [sel_ofNat _ _ (hlt _) (hlt _)]
  simp only [dense_sum (fun h => iyF (ix3 b n h)) (fun h => Ideal.div (val_main_v53 (F := Ideal) x1 x2 x3 (ix3 b n h)) (∑ h' : Fin 5, val_main_v53 (F := Ideal) x1 x2 x3 (ix3 b n h'))),
    dense_sum (fun h => ixF (ix3 b n h)) (fun h => Ideal.div (val_main_v37 (F := Ideal) x1 x2 x3 (ix3 b n h)) (∑ h' : Fin 5, val_main_v37 (F := Ideal) x1 x2 x3 (ix3 b n h')))]
  have hab := Cert.PrefixFacts.weights_cases x1 x2 x3 hx1 hx2
  have hab' : ((∀ h : Fin 5, ∃ r : ℝ, 0 < r ∧ val_main_v37 (F := Ideal) x1 x2 x3 (ix3 b n h) = (r : EReal)) ∧ (∀ h : Fin 5, ∃ r : ℝ, 0 < r ∧ val_main_v53 (F := Ideal) x1 x2 x3 (ix3 b n h) = (r : EReal)))
      ∨ ((∀ h : Fin 5, val_main_v37 (F := Ideal) x1 x2 x3 (ix3 b n h) = ⊥) ∧ (∀ h : Fin 5, val_main_v53 (F := Ideal) x1 x2 x3 (ix3 b n h) = ⊥)) := by
    rcases hab with ⟨h1, h2⟩ | ⟨h1, h2⟩
    · exact Or.inl ⟨fun h => h1 _, fun h => h2 _⟩
    · exact Or.inr ⟨fun h => h1 _, fun h => h2 _⟩
  exact separable_window (fun k j => xr (ix4 b c k j)) (fun h => ixF (ix3 b n h)) (fun h => iyF (ix3 b n h))
    (fun h => val_main_v37 (F := Ideal) x1 x2 x3 (ix3 b n h)) (fun h => val_main_v53 (F := Ideal) x1 x2 x3 (ix3 b n h)) hab'

end Cert.Bridge

end
-- ==== Proof.PreFinite.lean ====
/-
  The precondition read back. The predicate takes the absolute value of every entry of each of the five float
  inputs, compares it with the positive infinity by "less than", folds each comparison array by "and" down to a
  single i1 word, and joins the five words by "and". If the result is the word 1 then each of the five folds is 1,
  so each comparison is 1 at every index, that is |x| < ⊤ for every entry x. Over the extended reals |x| is
  max x (-x): at x = ⊥ and at x = ⊤ it is ⊤, which is not below ⊤, so an entry with |x| < ⊤ is a real number.
-/
import proofs.«166878_j37890201485784_2_alg».proof.Pre_finite_inputs
import proofs.«166878_j37890201485784_2_alg».proof.Proof.Gen.Pre_finite_inputs
import Idealize.ShloMosaic.Lib.ValueIdx
import Idealize.ShloMosaic.Lib.ReduceAll
import Idealize.ShloMosaic.PureOps.Ideal.Laws

noncomputable section

namespace Cert.PreFinite

open Idealize.ShloMosaic Idealize.ShloMosaic.ValueIdx

/-- The f32 pattern of the positive infinity (sign 0, exponent all ones, fraction 0) denotes the top element. -/
theorem inf_eq_top : Ideal.ofBits .f32 0x7F800000#32 = (⊤ : EReal) := by
  simp [Ideal.ofBits, Ideal.ieee]

/-- An extended real whose absolute value max x (-x) is strictly below the top element is a real number:
    at ⊥ the absolute value is max ⊥ ⊤ = ⊤ and at ⊤ it is max ⊤ ⊥ = ⊤, neither below ⊤. -/
theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- The rank-0 shape has exactly one index: a function out of the empty set of axes. -/
instance : Subsingleton Cert.Pre_finite_inputs.S_.Idx := ⟨fun a b => funext fun d => d.elim0⟩

/-- One input, any shape: if the fold by "and" of the comparison |x| < bound, over all axes into a result with a
    single index, is 1, and the bound is ⊤ at every index, then every entry of x is a real number. -/
theorem real_of_all {s t u : Shape} [Subsingleton t.Idx] {axes : List (Fin s.rank)}
    (x bound : FVec Ideal s .f32) (hb : ∀ i, bound i = (⊤ : EReal)) (init : IVec u 1)
    (h : s.ReducesTo axes t) (hu : 0 < u.numel) (j : t.Idx)
    (e : Host.reduce IntOp.andi (cmpf .olt (Host.absf x) bound) init h hu j = 1#1) (i : s.Idx) :
    ∃ r : ℝ, x i = (r : EReal) := by
  -- every word of the folded array is 1, in particular the one at i: |x i| < bound i
  have e1 := Host.reduce_andi_all _ init h hu j e i
  refine real_of_abs_lt_top (x i) ?_
  rw [← hb i]
  exact e1

open Cert.Pre_finite_inputs in
/-- THE PRECONDITION DECODED: when the predicate holds, every entry of each of the five inputs is a real number. -/
theorem real_of_pre (x0 : FVec Ideal S8x16x512x512 .f32) (x1 : FVec Ideal S8x16384x2 .f32)
    (x2 : FVec Ideal S_ .f32) (x3 : FVec Ideal S90 .f32) (x4 : FVec Ideal S5 .f32)
    (h : Cert.Pre_finite_inputs.fn (F := Ideal) x0 x1 x2 x3 x4 = fun _ => 1#1) :
    (∀ j, ∃ r : ℝ, x0 j = (r : EReal)) ∧ (∀ j, ∃ r : ℝ, x1 j = (r : EReal)) ∧
    (∀ j, ∃ r : ℝ, x2 j = (r : EReal)) ∧ (∀ j, ∃ r : ℝ, x3 j = (r : EReal)) ∧
    (∀ j, ∃ r : ℝ, x4 j = (r : EReal)) := by
  -- the result has one index; read the equation there and open the chain of operations
  have e := congrFun h ValueIdx.ix0
  unfold Cert.Pre_finite_inputs.fn Cert.Pre_finite_inputs.fn_part1 at e
  dsimp only [andi] at e
  -- an "and" of i1 words is 1 exactly when both are: five folds, each equal to 1
  rw [IntOp.andi_eq_one, IntOp.andi_eq_one, IntOp.andi_eq_one, IntOp.andi_eq_one] at e
  obtain ⟨⟨⟨⟨e0, e1⟩, e2⟩, e3⟩, e4⟩ := e
  -- each bound is the constant +∞ (broadcast to the input's shape), ⊤ at every index
  exact ⟨real_of_all x0 _ (fun _ => inf_eq_top) _ _ _ _ e0,
    real_of_all x1 _ (fun _ => inf_eq_top) _ _ _ _ e1,
    real_of_all x2 _ (fun _ => inf_eq_top) _ _ _ _ e2,
    real_of_all x3 _ (fun _ => inf_eq_top) _ _ _ _ e3,
    real_of_all x4 _ (fun _ => inf_eq_top) _ _ _ _ e4⟩

end Cert.PreFinite

end
-- ==== Proof.lean ====
/-
  The claim: the window-gather kernel and its jnp reference.

  Per batch row, channel and query point both programs return the 5x5 window of the image around the rounded query position,
  weighted by a sampled Gaussian. The reference gathers the 25 pixels and weights them by the outer product of the row and
  column weights normalised by its total; the kernel normalises the row and column weights separately, spreads them into two dense
  one-hot-weighted selection vectors of length 512, and contracts the image against them (a matrix product over the columns, then
  a weighted sum over the rows). Over the extended reals the two are one function of the arguments when the image, the
  coordinates and the scale are finite (Proof/Bridge.lean); the frames are the generated ones, the reference's frame its generated
  run with the result dropped, and the idealization rewrote nothing.
-/
import proofs.«166878_j37890201485784_2_alg».proof.Defs
import proofs.«166878_j37890201485784_2_alg».proof.Proof.Gen.Kernel
import proofs.«166878_j37890201485784_2_alg».proof.Proof.Gen.Kernel.Skeleton
import proofs.«166878_j37890201485784_2_alg».proof.Proof.Gen.Kernel.Launch
import proofs.«166878_j37890201485784_2_alg».proof.Proof.Gen.Kernel.Points
import proofs.«166878_j37890201485784_2_alg».proof.Proof.Gen.Kernel.Frame
import proofs.«166878_j37890201485784_2_alg».proof.Proof.Gen.KernelIdeal
import proofs.«166878_j37890201485784_2_alg».proof.Proof.Gen.KernelIdeal.Skeleton
import proofs.«166878_j37890201485784_2_alg».proof.Proof.Gen.KernelIdeal.Launch
import proofs.«166878_j37890201485784_2_alg».proof.Proof.Gen.KernelIdeal.Points
import proofs.«166878_j37890201485784_2_alg».proof.Proof.Gen.KernelIdeal.Frame
import proofs.«166878_j37890201485784_2_alg».proof.Proof.Gen.ReferenceIdeal
import proofs.«166878_j37890201485784_2_alg».proof.Proof.Gen.Pre_finite_inputs
import proofs.«166878_j37890201485784_2_alg».proof.Proof.Gen.KernelIdeal.Value
import proofs.«166878_j37890201485784_2_alg».proof.Proof.Gen.ReferenceIdeal.Run
import proofs.«166878_j37890201485784_2_alg».proof.Proof.Gen.ReferenceIdeal.Read
import proofs.«166878_j37890201485784_2_alg».proof.Proof.Bridge
import proofs.«166878_j37890201485784_2_alg».proof.Proof.PreFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with every argument unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 4000000 in
/-- Both programs end at one array: the kernel's whole-array function of the arrays its region finds, which is the reference's
    result of the same arguments. -/
theorem algebraic : Cert.algebraic_KernelIdeal_ReferenceIdeal := by
  intro m ρ m' ρ' hpre hagree
  refine ⟨fun c => Cert.KernelValue.GkA (Cert.KernelIdeal.Gen.V m c Cert.KernelIdeal.main_v82) (Cert.KernelIdeal.Gen.V m c Cert.KernelIdeal.main_v80)
    (Cert.KernelIdeal.Gen.V m c Cert.KernelIdeal.main_v81) (Cert.KernelIdeal.Gen.V m c Cert.KernelIdeal.main_v78) (Cert.KernelIdeal.Gen.V m c Cert.KernelIdeal.main_v79), ?_, ?_⟩
  · exact (θ_run Cert.KernelIdeal.defs _ _).mono (fun r h c => ⟨(h c).1.trans (Cert.KernelValue.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, -, -⟩ := Cert.PreFinite.real_of_pre _ _ _ _ _ (hpre c)
    rw [Cert.ReferenceIdeal.Read.val_main_v101_eq, (hagree c).1, (hagree c).2.1, (hagree c).2.2.1, (hagree c).2.2.2.1, (hagree c).2.2.2.2]
    show _ = Cert.KernelValue.GkA _ _ _ _ _
    rw [Cert.KernelHost.V_v82 m c, Cert.KernelHost.V_v80 m c, Cert.KernelHost.V_v81 m c, Cert.KernelHost.V_v78 m c, Cert.KernelHost.V_v79 m c]
    exact (Cert.Bridge.core _ _ _ _ _ h0 h1 h2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
